-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 102
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x128, .f32⟩
  | .hbm, ⟨62, _⟩ => ⟨S800000x128, .i1⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x40, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S1, .i32⟩
  | .hbm, ⟨82, _⟩ => ⟨S_, .i32⟩
  | .hbm, ⟨83, _⟩ => ⟨S800000x1, .i32⟩
  | .hbm, ⟨84, _⟩ => ⟨S800000x1, .i1⟩
  | .hbm, ⟨85, _⟩ => ⟨S1x1, .i32⟩
  | .hbm, ⟨86, _⟩ => ⟨S800000x1, .i32⟩
  | .hbm, ⟨87, _⟩ => ⟨S800000x1, .i1⟩
  | .hbm, ⟨88, _⟩ => ⟨S800000x1, .i1⟩
  | .hbm, ⟨89, _⟩ => ⟨S_, .i1⟩
  | .hbm, ⟨90, _⟩ => ⟨S800000, .i1⟩
  | .hbm, ⟨91, _⟩ => ⟨S800000x40, .f32⟩
  | .hbm, ⟨92, _⟩ => ⟨S800000x40, .i1⟩
  | .hbm, ⟨93, _⟩ => ⟨S_, .f32⟩
  | .hbm, ⟨94, _⟩ => ⟨S800000x40, .f32⟩
  | .hbm, ⟨95, _⟩ => ⟨S800000x40, .f32⟩
  | .hbm, ⟨96, _⟩ => ⟨S_, .f32⟩
  | .hbm, ⟨97, _⟩ => ⟨S50000x40, .f32⟩
  | .hbm, ⟨98, _⟩ => ⟨S800000x1, .i32⟩
  | .hbm, ⟨99, _⟩ => ⟨S50000x40, .f32⟩
  | .hbm, ⟨100, _⟩ => ⟨S1x40, .f32⟩
  | .hbm, ⟨101, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v19 : Ref sig .tc := ⟨.hbm, 95, rfl⟩
abbrev main_cst_1 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S800000_S800000x40_0 : S800000.BroadcastsInDim S800000x40 (![0] : Fin 1 → Fin S800000x40.rank)
  bcast_S_S800000x40 : S_.BroadcastsInDim S800000x40 (![] : Fin 0 → Fin S800000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v17) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v22) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S1, .i32⟩
  | .hbm, ⟨56, _⟩ => ⟨S_, .i32⟩
  | .hbm, ⟨57, _⟩ => ⟨S800000x1, .i32⟩
  | .hbm, ⟨58, _⟩ => ⟨S800000x1, .i1⟩
  | .hbm, ⟨59, _⟩ => ⟨S1x1, .i32⟩
  | .hbm, ⟨60, _⟩ => ⟨S800000x1, .i32⟩
  | .hbm, ⟨61, _⟩ => ⟨S800000x1, .i1⟩
  | .hbm, ⟨62, _⟩ => ⟨S800000x1, .i1⟩
  | .hbm, ⟨63, _⟩ => ⟨S_, .i1⟩
  | .hbm, ⟨64, _⟩ => ⟨S800000, .i1⟩
  | .hbm, ⟨65, _⟩ => ⟨S800000x128, .f32⟩
  | .hbm, ⟨66, _⟩ => ⟨S800000x128, .i1⟩
  | .hbm, ⟨67, _⟩ => ⟨S_, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x40, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S1, .i32⟩
  | .hbm, ⟨90, _⟩ => ⟨S_, .i32⟩
  | .hbm, ⟨91, _⟩ => ⟨S800000x1, .i32⟩
  | .hbm, ⟨92, _⟩ => ⟨S800000x1, .i1⟩
  | .hbm, ⟨93, _⟩ => ⟨S1x1, .i32⟩
  | .hbm, ⟨94, _⟩ => ⟨S800000x1, .i32⟩
  | .hbm, ⟨95, _⟩ => ⟨S800000x1, .i1⟩
  | .hbm, ⟨96, _⟩ => ⟨S800000x1, .i1⟩
  | .hbm, ⟨97, _⟩ => ⟨S_, .i1⟩
  | .hbm, ⟨98, _⟩ => ⟨S800000, .i1⟩
  | .hbm, ⟨99, _⟩ => ⟨S800000x40, .f32⟩
  | .hbm, ⟨100, _⟩ => ⟨S800000x40, .i1⟩
  | .hbm, ⟨101, _⟩ => ⟨S_, .f32⟩
  | .hbm, ⟨102, _⟩ => ⟨S800000x40, .f32⟩
  | .hbm, ⟨103, _⟩ => ⟨S800000x40, .f32⟩
  | .hbm, ⟨104, _⟩ => ⟨S_, .f32⟩
  | .hbm, ⟨105, _⟩ => ⟨S50000x40, .f32⟩
  | .hbm, ⟨106, _⟩ => ⟨S800000x1, .i32⟩
  | .hbm, ⟨107, _⟩ => ⟨S50000x40, .f32⟩
  | .hbm, ⟨108, _⟩ => ⟨S1x40, .f32⟩
  | .hbm, ⟨109, _⟩ => ⟨S50000x40, .f32⟩
  | .hbm, ⟨110, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call1_cst : Ref sig .tc := ⟨.hbm, 43, rfl⟩
abbrev main_call1_v0 : Ref sig .tc := ⟨.hbm, 44, rfl⟩
abbrev main_v12 : Ref sig .tc := ⟨.hbm, 45, rfl⟩
abbrev main_v13 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v14 : Ref sig .tc := ⟨.hbm, 69, rfl⟩
abbrev main_cst_0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_call3_cst : Ref sig .tc := ⟨.hbm, 77, rfl⟩
abbrev main_call3_v0 : Ref sig .tc := ⟨.hbm, 78, rfl⟩
abbrev main_v21 : Ref sig .tc := ⟨.hbm, 79, rfl⟩
abbrev main_v22 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v23 : Ref sig .tc := ⟨.hbm, 103, rfl⟩
abbrev main_cst_1 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000_S800000x40_0 : S800000.BroadcastsInDim S800000x40 (![0] : Fin 1 → Fin S800000x40.rank)
  bcast_S_S800000x40 : S_.BroadcastsInDim S800000x40 (![] : Fin 0 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KRun.lean ====
/-
  The idealized kernel's run with every buffer named.

  @main is thirteen segments: host stretches and six kernel regions. The contents of the TensorCore's buffers at each
  boundary are a fold from the launch memory: a host stretch applies its operations, a region leaves each of its
  output arrays at what its grid points wrote back and every other buffer as it found it. Every weakly fair execution
  terminates, nothing faulting, and the final memory holds, at every buffer that lives for the whole program, the last
  boundary's contents. The launch is the one that proves the arguments unchanged; here the reading of the final state is
  kept whole instead of being specialised to the arguments, so that the result buffer can be read too.
-/
import proofs.«152837_j64845416235488_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The same run read at the result and at the eight arguments: the result at the last boundary's contents, the arguments
    as launched. -/
theorem run_result : θ_run defs (onTc (τ := τ) (main (F := F))) ⟨m, fun _ => 0, ρ⟩ (fun r => ∀ c : Dev nD,
      r.2.mem ((c.tc : Thread nD τ).loc main_v24) = W13 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v24 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)
    (run_all m ρ)

end Cert.KernelIdeal.KRun

end
-- ==== Proof.KAgg.lean ====
/-
  The neighbourhood aggregation as one function, in this program's own vocabulary.

  The edge list is a 2×E array of node numbers: row 0 the sources, row 1 the targets. Aggregating an N×D matrix h
  takes, for every edge, row src(e) of h (a negative number counted from the end; a number outside 0..N-1 after that
  gives a row of the format's not-a-number pattern), and adds the taken rows into an N×D matrix of zeros at the rows
  the targets name. The program spells this with a slice and a reshape per row of the edge list, a comparison, an
  addition and a select for the negative numbers, a range test, a gather, a select on the test, and a scatter-add.
  Nothing below looks inside the gather or the scatter-add: the functions are named so that two programs that apply
  the same operations to equal matrices can be compared without opening them.
-/
import proofs.«152837_j64845416235488_1_alg».proof.Proof.Gen.KernelIdeal

noncomputable section

namespace Cert.KernelIdeal.Agg

open Cert.KernelIdeal Cert.KernelIdeal.Facts₀ Idealize.ShloMosaic

variable {F : FTy → Type} [FloatOps F]

/-- Row `r` of the edge list as a vector of E node numbers. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The node numbers with the negative ones counted from the end, as an E×1 column of row numbers. -/
def rowOf (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Whether each row number lies in 0..N-1. -/
def inRange (row : (⟨S800000x1, .i32⟩ : BufTy).Contents (Elt F)) : (⟨S800000, .i1⟩ : BufTy).Contents (Elt F) :=
  Host.reduce IntOp.andi
    (andi (cmpi .sge row (broadcastInDim S800000x1 ![] bcast_S_S800000x1 (constantI S_ 32 0#32)))
      (cmpi .sle row (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of an N×128 matrix at the edges' sources. -/
def take128 (h : (⟨S50000x128, .f32⟩ : BufTy).Contents (Elt F)) (src : (⟨S800000, .i32⟩ : BufTy).Contents (Elt F)) :
    (⟨S800000x128, .f32⟩ : BufTy).Contents (Elt F) :=
  select (broadcastInDim S800000x128 ![0] bcast_S800000_S800000x128_0 (inRange (rowOf src)))
    (Host.gather gather_S50000x128_S800000x1_S800000x128_1_0_n_n_0_1_1128 h (rowOf src))
    (broadcastInDim S800000x128 ![] bcast_S_S800000x128 (constant S_ .f32 0x7FC00000#32))

/-- The rows of an N×40 matrix at the edges' sources. -/
def take40 (h : (⟨S50000x40, .f32⟩ : BufTy).Contents (Elt F)) (src : (⟨S800000, .i32⟩ : BufTy).Contents (Elt F)) :
    (⟨S800000x40, .f32⟩ : BufTy).Contents (Elt F) :=
  select (broadcastInDim S800000x40 ![0] bcast_S800000_S800000x40_0 (inRange (rowOf src)))
    (Host.gather gather_S50000x40_S800000x1_S800000x40_1_0_n_n_0_1_140 h (rowOf src))
    (broadcastInDim S800000x40 ![] bcast_S_S800000x40 (constant S_ .f32 0x7FC00000#32))

/-- The taken rows added into zeros at the edges' targets: the aggregation of an N×128 matrix along the edge list. -/
def agg128 (ei : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstOf ei))
    (take128 h (srcOf ei))

/-- The same for an N×40 matrix. -/
def agg40 (ei : (⟨S2x800000, .i32⟩ : BufTy).Contents (Elt F)) (h : (⟨S50000x40, .f32⟩ : BufTy).Contents (Elt F)) :
    (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 (dstOf ei))
    (take40 h (srcOf ei))

end Cert.KernelIdeal.Agg

end
-- ==== Proof.KStretch.lean ====
/-
  The short host stretches of the idealized kernel, each read at one buffer for ANY contents before it.

  Before the first region the edge list's two rows are sliced out and reshaped to vectors. After each projection
  kernel, once the rows at the edges' sources have been taken, five host lines follow: a zero constant broadcast to an
  N×D matrix, the targets broadcast to a column, the scatter-add of the taken rows into the zeros at the targets, and
  the reshape of the layer's bias vector to a row. The scatter-add is left as it is, applied to what the buffers hold.
-/
import proofs.«152837_j64845416235488_1_alg».proof.Proof.Gen.KernelIdeal.Frame
import proofs.«152837_j64845416235488_1_alg».proof.Proof.KAgg
import Idealize.ShloMosaic.Lib.StableHlo.Run

set_option maxRecDepth 16384

noncomputable section

namespace Cert.KernelIdeal.KStretch

open Cert.KernelIdeal Cert.KernelIdeal.Gen Idealize.ShloMosaic Idealize.ShloMosaic.TcCoe Idealize.ShloMosaic.StableHlo

variable {F : FTy → Type} [FloatOps F]

/-- The edges' sources: row 0 of the edge list. -/
theorem src0 (W : Valuation τ sig (Elt F)) :
    after hostOps0 W (Proc.devRef .tc main_v1) = Agg.srcOf (W (Proc.devRef .tc main_arg1)) := by
  rfl

/-- The edges' targets: row 1 of the edge list. -/
theorem dst0 (W : Valuation τ sig (Elt F)) :
    after hostOps0 W (Proc.devRef .tc main_v3) = Agg.dstOf (W (Proc.devRef .tc main_arg1)) := by
  rfl

attribute [local irreducible] Host.reduce Host.gather Host.scatterAdd in
/-- The first layer's taken rows added into zeros at the edges' targets. -/
theorem scat1 (W : Valuation τ sig (Elt F)) :
    after hostOps1_1 W (Proc.devRef .tc main_v8)
      = Host.scatterAdd scatter_S50000x128_S800000x1_S800000x128_1_0_0_1
          (broadcastInDim S50000x128 ![] Facts₀.bcast_S_S50000x128 (constant S_ .f32 0x00000000#32))
          (broadcastInDim S800000x1 ![0] Facts₀.bcast_S800000_S800000x1_0 (W (Proc.devRef .tc main_v3)))
          (W (Proc.devRef .tc main_v5)) := by
  rfl

/-- The first layer's bias vector read as a row. -/
theorem row1 (W : Valuation τ sig (Elt F)) :
    after hostOps1_1 W (Proc.devRef .tc main_v9)
      = shapeCast S1x128 (W (Proc.devRef .tc main_arg3)) Facts₀.shapeCasts_S128_S1x128 := by
  rfl

attribute [local irreducible] Host.reduce Host.gather Host.scatterAdd in
/-- The second layer's taken rows added into zeros at the edges' targets. -/
theorem scat3 (W : Valuation τ sig (Elt F)) :
    after hostOps3_1 W (Proc.devRef .tc main_v15)
      = Host.scatterAdd scatter_S50000x128_S800000x1_S800000x128_1_0_0_1
          (broadcastInDim S50000x128 ![] Facts₀.bcast_S_S50000x128 (constant S_ .f32 0x00000000#32))
          (broadcastInDim S800000x1 ![0] Facts₀.bcast_S800000_S800000x1_0 (W (Proc.devRef .tc main_v3)))
          (W (Proc.devRef .tc main_v12)) := by
  rfl

/-- The second layer's bias vector read as a row. -/
theorem row3 (W : Valuation τ sig (Elt F)) :
    after hostOps3_1 W (Proc.devRef .tc main_v16)
      = shapeCast S1x128 (W (Proc.devRef .tc main_arg5)) Facts₀.shapeCasts_S128_S1x128 := by
  rfl

attribute [local irreducible] Host.reduce Host.gather Host.scatterAdd in
/-- The third layer's taken rows added into zeros at the edges' targets. -/
theorem scat5 (W : Valuation τ sig (Elt F)) :
    after hostOps5_1 W (Proc.devRef .tc main_v22)
      = Host.scatterAdd scatter_S50000x40_S800000x1_S800000x40_1_0_0_1
          (broadcastInDim S50000x40 ![] Facts₀.bcast_S_S50000x40 (constant S_ .f32 0x00000000#32))
          (broadcastInDim S800000x1 ![0] Facts₀.bcast_S800000_S800000x1_0 (W (Proc.devRef .tc main_v3)))
          (W (Proc.devRef .tc main_v19)) := by
  rfl

/-- The third layer's bias vector read as a row. -/
theorem row5 (W : Valuation τ sig (Elt F)) :
    after hostOps5_1 W (Proc.devRef .tc main_v23)
      = shapeCast S1x40 (W (Proc.devRef .tc main_arg7)) Facts₀.shapeCasts_S40_S1x40 := by
  rfl

end Cert.KernelIdeal.KStretch

end
-- ==== Proof.LibTypedRef.lean ====
import Idealize.ShloMosaic.Lib.StableHlo.Run

/-! ## A function applied through identity transports

A host operation of a module-local function is stated over typed references: its function is wrapped in transports
along "this buffer's type is the value's type". At a literal reference both sides of that equation are the same type, so
the transports are the identity; these lemmas say so for an operation with no, one, two or three operands, WITHOUT
looking inside the function. (Closing such a goal by `rfl` instead can send the unifier into the function's body.) -/

namespace Idealize.ShloMosaic.StableHlo

universe u

theorem cast_app₀ {γ : Sort u} (hγ : γ = γ) (c : γ) : cast hγ c = c := rfl

theorem cast_app₁ {α γ : Sort u} (hα : α = α) (hγ : γ = γ) (f : α → γ) (x : α) :
    cast hγ (f (cast hα x)) = f x := rfl

theorem cast_app₂ {α β γ : Sort u} (hα : α = α) (hβ : β = β) (hγ : γ = γ) (f : α → β → γ) (x : α) (y : β) :
    cast hγ (f (cast hα x) (cast hβ y)) = f x y := rfl

theorem cast_app₃ {α β δ γ : Sort u} (hα : α = α) (hβ : β = β) (hδ : δ = δ) (hγ : γ = γ) (f : α → β → δ → γ)
    (x : α) (y : β) (z : δ) : cast hγ (f (cast hα x) (cast hβ y) (cast hδ z)) = f x y z := rfl

end Idealize.ShloMosaic.StableHlo
-- ==== Proof.KTake.lean ====
/-
  The rows taken at the edges' sources, read off the program's own operations.

  Each of the three aggregations begins with twenty-three operations that compute, from an N×D matrix h and the vector
  of the edges' source node numbers, the E×D matrix of the rows of h at those numbers (a negative number counted from
  the end, a number out of range giving a row of the not-a-number pattern). Every operation writes one buffer of its
  own and reads buffers written before it, so what the last buffer holds afterwards is the composition of the
  operations' functions applied to the two buffers the operations only read: the matrix and the source numbers. Each
  function is stated at the tensor type of its value and moved to its buffer's own type and back. A move there and
  back is the identity; and at these buffers the buffer's type is the value's type, so the moves left at the two
  operands and at the result are identities as well. What remains is the definition of the taken rows, unfolded.
-/
import proofs.«152837_j64845416235488_1_alg».proof.Proof.Gen.KernelIdeal.Frame
import proofs.«152837_j64845416235488_1_alg».proof.Proof.KAgg
import proofs.«152837_j64845416235488_1_alg».proof.Proof.LibTypedRef
import Idealize.ShloMosaic.Lib.StableHlo.Run

noncomputable section

namespace Cert.KernelIdeal.KTake

open Cert.KernelIdeal Cert.KernelIdeal.Gen Idealize.ShloMosaic Idealize.ShloMosaic.TcCoe Idealize.ShloMosaic.StableHlo

variable {F : FTy → Type} [FloatOps F]

/-- Contents moved to a buffer's own type and back are unchanged. -/
theorem ofBuf_toBuf {Val : EltTy → Type} {T : BufTy} (x : TRef sig T) (v : T.Contents Val) : x.ofBuf (x.toBuf v) = v := by
  obtain ⟨r, h, _, _⟩ := x; subst h; rfl

attribute [local irreducible] Host.reduce Host.gather Host.scatterAdd select cmpi addi andi broadcastInDim constantI constant in
set_option maxHeartbeats 4000000 in
/-- The first aggregation's taken rows: of the first product, at the sources. -/
theorem take1 (W : Valuation τ sig (Elt F)) :
    after hostOps1 W (Proc.devRef .tc main_v5) = Agg.take128 (W (Proc.devRef .tc main_v4)) (W (Proc.devRef .tc main_v1)) := by
  have eSrc : (TRef.of main_v1 : TRef sig ⟨S800000, .i32⟩).ofBuf (W (Proc.devRef .tc main_v1)) = W (Proc.devRef .tc main_v1) := rfl
  have eMat : (TRef.of main_v4 : TRef sig ⟨S50000x128, .f32⟩).ofBuf (W (Proc.devRef .tc main_v4)) = W (Proc.devRef .tc main_v4) := rfl
  after_results_simp
  simp only [ofBuf_toBuf, eSrc, eMat]
  unfold Agg.take128 Agg.inRange Agg.rowOf
  exact cast_app₀ _ _

attribute [local irreducible] Host.reduce Host.gather Host.scatterAdd select cmpi addi andi broadcastInDim constantI constant in
set_option maxHeartbeats 4000000 in
/-- The second aggregation's taken rows: of the second product, at the sources. -/
theorem take3 (W : Valuation τ sig (Elt F)) :
    after hostOps3 W (Proc.devRef .tc main_v12) = Agg.take128 (W (Proc.devRef .tc main_v11)) (W (Proc.devRef .tc main_v1)) := by
  have eSrc : (TRef.of main_v1 : TRef sig ⟨S800000, .i32⟩).ofBuf (W (Proc.devRef .tc main_v1)) = W (Proc.devRef .tc main_v1) := rfl
  have eMat : (TRef.of main_v11 : TRef sig ⟨S50000x128, .f32⟩).ofBuf (W (Proc.devRef .tc main_v11)) = W (Proc.devRef .tc main_v11) := rfl
  after_results_simp
  simp only [ofBuf_toBuf, eSrc, eMat]
  unfold Agg.take128 Agg.inRange Agg.rowOf
  exact cast_app₀ _ _

attribute [local irreducible] Host.reduce Host.gather Host.scatterAdd select cmpi addi andi broadcastInDim constantI constant in
set_option maxHeartbeats 4000000 in
/-- The third aggregation's taken rows: of the third product, 40 columns wide, at the sources. -/
theorem take5 (W : Valuation τ sig (Elt F)) :
    after hostOps5 W (Proc.devRef .tc main_v19) = Agg.take40 (W (Proc.devRef .tc main_v18)) (W (Proc.devRef .tc main_v1)) := by
  have eSrc : (TRef.of main_v1 : TRef sig ⟨S800000, .i32⟩).ofBuf (W (Proc.devRef .tc main_v1)) = W (Proc.devRef .tc main_v1) := rfl
  have eMat : (TRef.of main_v18 : TRef sig ⟨S50000x40, .f32⟩).ofBuf (W (Proc.devRef .tc main_v18)) = W (Proc.devRef .tc main_v18) := rfl
  after_results_simp
  simp only [ofBuf_toBuf, eSrc, eMat]
  unfold Agg.take40 Agg.inRange Agg.rowOf
  exact cast_app₀ _ _

end Cert.KernelIdeal.KTake

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«152837_j64845416235488_1_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.LibGraphConv.lean ====
/-
  One layer of an edge-conditioned graph convolution and its dense read-out, as mathematics over the extended
  reals, for any extents.

  The message of edge `p` into output channel `n` is
      msg(p, n) = Σ_k h(p, k) · wh(k, n) + Σ_k e(p, k) · we(k, n) + b(0, n)
  where `h` holds the gathered node features (A channels), `e` the edge attributes (B channels), `wh` and `we` the
  two row blocks of one (A+B)×N weight matrix and `b` the bias as a 1×N row. The read-out of node `p` is
      out(p, n) = Σ_k h(p, k) · w(k, n) + b(0, n).
  Both depend on row `p` of the row-indexed operands only.

  The tile spelling computes them as matrix products into zero accumulators (operands first rounded to a narrower
  format, which is the identity on the extended reals), added, plus the bias row broadcast down the rows.
-/
import proofs.«152837_j64845416235488_1_alg».proof.Proof.LibPlainMatmul
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibPlainMatmul

/-- The per-edge message: features times their weight block, plus attributes times theirs, plus the bias row. -/
def edgeMsg {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32) :
    FVec Ideal ⟨2, ![E, N]⟩ .f32 :=
  fun j => ((∑ k : Fin A, h (ix2 (j 0) k) * wh (ix2 k (j 1))) + ∑ k : Fin B, e (ix2 (j 0) k) * we (ix2 k (j 1)))
    + b (ix2 0 (j 1))

/-- The dense read-out: features times the weight, plus the bias row. -/
def denseOut {E A N : ℕ} (h : FVec Ideal ⟨2, ![E, A]⟩ .f32) (w : FVec Ideal ⟨2, ![A, N]⟩ .f32)
    (b : FVec Ideal ⟨2, ![1, N]⟩ .f32) : FVec Ideal ⟨2, ![E, N]⟩ .f32 :=
  fun j => (∑ k : Fin A, h (ix2 (j 0) k) * w (ix2 k (j 1))) + b (ix2 0 (j 1))

theorem edgeMsg_apply {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32)
    (p : Fin E) (n : Fin N) :
    edgeMsg h e wh we b (ix2 p n)
      = ((∑ k : Fin A, h (ix2 p k) * wh (ix2 k n)) + ∑ k : Fin B, e (ix2 p k) * we (ix2 k n)) + b (ix2 0 n) := rfl

theorem denseOut_apply {E A N : ℕ} (h : FVec Ideal ⟨2, ![E, A]⟩ .f32) (w : FVec Ideal ⟨2, ![A, N]⟩ .f32)
    (b : FVec Ideal ⟨2, ![1, N]⟩ .f32) (p : Fin E) (n : Fin N) :
    denseOut h w b (ix2 p n) = (∑ k : Fin A, h (ix2 p k) * w (ix2 k n)) + b (ix2 0 n) := rfl

/-- A message depends on its own edge's row of the features and attributes, on its own channel's column of the two
    weight blocks and on its own channel's bias entry only: messages agree at entries where these agree. -/
theorem edgeMsg_congr {E E' A B N : ℕ}
    (h : FVec Ideal ⟨2, ![E, A]⟩ .f32) (e : FVec Ideal ⟨2, ![E, B]⟩ .f32) (wh : FVec Ideal ⟨2, ![A, N]⟩ .f32)
    (we : FVec Ideal ⟨2, ![B, N]⟩ .f32) (b : FVec Ideal ⟨2, ![1, N]⟩ .f32)
    (h' : FVec Ideal ⟨2, ![E', A]⟩ .f32) (e' : FVec Ideal ⟨2, ![E', B]⟩ .f32) (wh' : FVec Ideal ⟨2, ![A, N]⟩ .f32)
    (we' : FVec Ideal ⟨2, ![B, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k)) (he : ∀ k : Fin B, e (ix2 (j 0) k) = e' (ix2 (j' 0) k))
    (hwh : ∀ k : Fin A, wh (ix2 k (j 1)) = wh' (ix2 k (j' 1))) (hwe : ∀ k : Fin B, we (ix2 k (j 1)) = we' (ix2 k (j' 1)))
    (hb : b (ix2 0 (j 1)) = b' (ix2 0 (j' 1))) :
    edgeMsg h e wh we b j = edgeMsg h' e' wh' we' b' j' := by
  show ((∑ k : Fin A, h (ix2 (j 0) k) * wh (ix2 k (j 1))) + ∑ k : Fin B, e (ix2 (j 0) k) * we (ix2 k (j 1)))
      + b (ix2 0 (j 1))
    = ((∑ k : Fin A, h' (ix2 (j' 0) k) * wh' (ix2 k (j' 1))) + ∑ k : Fin B, e' (ix2 (j' 0) k) * we' (ix2 k (j' 1)))
      + b' (ix2 0 (j' 1))
  have s1 : (∑ k : Fin A, h (ix2 (j 0) k) * wh (ix2 k (j 1))) = ∑ k : Fin A, h' (ix2 (j' 0) k) * wh' (ix2 k (j' 1)) :=
    Finset.sum_congr rfl fun k _ => by rw [hh k, hwh k]
  have s2 : (∑ k : Fin B, e (ix2 (j 0) k) * we (ix2 k (j 1))) = ∑ k : Fin B, e' (ix2 (j' 0) k) * we' (ix2 k (j' 1)) :=
    Finset.sum_congr rfl fun k _ => by rw [he k, hwe k]
  rw [hb, s1, s2]

/-- The read-out of a node depends on that node's row of the features, on its channel's column of the weight and on
    its channel's bias entry only. -/
theorem denseOut_congr {E E' A N : ℕ}
    (h : FVec Ideal ⟨2, ![E, A]⟩ .f32) (w : FVec Ideal ⟨2, ![A, N]⟩ .f32) (b : FVec Ideal ⟨2, ![1, N]⟩ .f32)
    (h' : FVec Ideal ⟨2, ![E', A]⟩ .f32) (w' : FVec Ideal ⟨2, ![A, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k))
    (hw : ∀ k : Fin A, w (ix2 k (j 1)) = w' (ix2 k (j' 1))) (hb : b (ix2 0 (j 1)) = b' (ix2 0 (j' 1))) :
    denseOut h w b j = denseOut h' w' b' j' := by
  show (∑ k : Fin A, h (ix2 (j 0) k) * w (ix2 k (j 1))) + b (ix2 0 (j 1))
    = (∑ k : Fin A, h' (ix2 (j' 0) k) * w' (ix2 k (j' 1))) + b' (ix2 0 (j' 1))
  have s1 : (∑ k : Fin A, h (ix2 (j 0) k) * w (ix2 k (j 1))) = ∑ k : Fin A, h' (ix2 (j' 0) k) * w' (ix2 k (j' 1)) :=
    Finset.sum_congr rfl fun k _ => by rw [hh k, hw k]
  rw [hb, s1]

/-- A 1×N row broadcast down R rows, read at `(p, n)`: the row's entry `n`. -/
theorem rowBroadcast_apply {R N : ℕ} {α : Type} (x : (⟨2, ![1, N]⟩ : Shape).Idx → α)
    (hb : (⟨2, ![1, N]⟩ : Shape).Broadcasts ⟨2, ![R, N]⟩) (p : Fin R) (n : Fin N) :
    broadcastTo ⟨2, ![R, N]⟩ x hb (ix2 p n) = x (ix2 0 n) := by
  refine broadcastTo_apply x hb (ix2 p n) (ix2 0 n) fun a => ?_
  match a with
  | ⟨0, _⟩ => rfl
  | ⟨1, _⟩ =>
    show n.val = if N = 1 then 0 else n.val
    split
    · rename_i h1; have := n.isLt; omega
    · rfl

/-- The tile spelling of the message at `(p, n)`: two products into zero, added, plus the broadcast bias row. -/
theorem edge_tile_apply {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ ψ) (e : FVec Ideal ⟨2, ![R, B]⟩ ψ)
    (wh : FVec Ideal ⟨2, ![A, N]⟩ ψ) (we : FVec Ideal ⟨2, ![B, N]⟩ ψ) (b : FVec Ideal ⟨2, ![1, N]⟩ .f32)
    (hb : (⟨2, ![1, N]⟩ : Shape).Broadcasts ⟨2, ![R, N]⟩) (p : Fin R) (n : Fin N) :
    addf (addf (matmul D1 none h wh (constant (F := Ideal) ⟨2, ![R, N]⟩ .f32 0x00000000#32))
                (matmul D2 none e we (constant (F := Ideal) ⟨2, ![R, N]⟩ .f32 0x00000000#32)))
         (broadcastTo ⟨2, ![R, N]⟩ b hb) (ix2 p n)
      = ((∑ k : Fin A, h (ix2 p k) * wh (ix2 k n)) + ∑ k : Fin B, e (ix2 p k) * we (ix2 k n)) + b (ix2 0 n) := by
  rw [addf_apply, addf_apply, matmul_eq_plain_zero_apply D1 hD1, matmul_eq_plain_zero_apply D2 hD2, rowBroadcast_apply]

/-- The tile spelling of the read-out at `(p, n)`: one product into zero plus the broadcast bias row. -/
theorem dense_tile_apply {R A N : ℕ} {ψ : FTy}
    (D : DotDims ⟨2, ![R, A]⟩ ⟨2, ![A, N]⟩ ⟨2, ![R, N]⟩) (hD : D = DotDims.plain R A N)
    (h : FVec Ideal ⟨2, ![R, A]⟩ ψ) (w : FVec Ideal ⟨2, ![A, N]⟩ ψ) (b : FVec Ideal ⟨2, ![1, N]⟩ .f32)
    (hb : (⟨2, ![1, N]⟩ : Shape).Broadcasts ⟨2, ![R, N]⟩) (p : Fin R) (n : Fin N) :
    addf (matmul D none h w (constant (F := Ideal) ⟨2, ![R, N]⟩ .f32 0x00000000#32))
         (broadcastTo ⟨2, ![R, N]⟩ b hb) (ix2 p n)
      = (∑ k : Fin A, h (ix2 p k) * w (ix2 k n)) + b (ix2 0 n) := by
  rw [addf_apply, matmul_eq_plain_zero_apply D hD, rowBroadcast_apply]

/-- The tile spelling as a whole: it IS the message of its operands. -/
theorem edge_tile_eq {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ .f32) (e : FVec Ideal ⟨2, ![R, B]⟩ .f32)
    (wh : FVec Ideal ⟨2, ![A, N]⟩ .f32) (we : FVec Ideal ⟨2, ![B, N]⟩ .f32) (b : FVec Ideal ⟨2, ![1, N]⟩ .f32)
    (hψ : ψ.bits < FTy.bits .f32) (hb : (⟨2, ![1, N]⟩ : Shape).Broadcasts ⟨2, ![R, N]⟩) :
    addf (addf (matmul D1 none (truncf ψ h hψ) (truncf ψ wh hψ) (constant (F := Ideal) ⟨2, ![R, N]⟩ .f32 0x00000000#32))
                (matmul D2 none (truncf ψ e hψ) (truncf ψ we hψ) (constant (F := Ideal) ⟨2, ![R, N]⟩ .f32 0x00000000#32)))
         (broadcastTo ⟨2, ![R, N]⟩ b hb)
      = edgeMsg h e wh we b := by
  funext j
  obtain ⟨p, n, rfl⟩ : ∃ (p : Fin R) (n : Fin N), j = ix2 p n := ⟨j 0, j 1, eq_ix2 j⟩
  rw [edge_tile_apply D1 hD1 D2 hD2, edgeMsg_apply]
  rfl

/-- The read-out's tile spelling as a whole: it IS the dense read-out of its operands. -/
theorem dense_tile_eq {R A N : ℕ} {ψ : FTy}
    (D : DotDims ⟨2, ![R, A]⟩ ⟨2, ![A, N]⟩ ⟨2, ![R, N]⟩) (hD : D = DotDims.plain R A N)
    (h : FVec Ideal ⟨2, ![R, A]⟩ .f32) (w : FVec Ideal ⟨2, ![A, N]⟩ .f32) (b : FVec Ideal ⟨2, ![1, N]⟩ .f32)
    (hψ : ψ.bits < FTy.bits .f32) (hb : (⟨2, ![1, N]⟩ : Shape).Broadcasts ⟨2, ![R, N]⟩) :
    addf (matmul D none (truncf ψ h hψ) (truncf ψ w hψ) (constant (F := Ideal) ⟨2, ![R, N]⟩ .f32 0x00000000#32))
         (broadcastTo ⟨2, ![R, N]⟩ b hb)
      = denseOut h w b := by
  funext j
  obtain ⟨p, n, rfl⟩ : ∃ (p : Fin R) (n : Fin N), j = ix2 p n := ⟨j 0, j 1, eq_ix2 j⟩
  rw [dense_tile_apply D hD, denseOut_apply]
  rfl

end Cert.LibGraphConv

end
-- ==== Proof.LibGraphConvHost.lean ====
/-
  The host spelling of a graph-convolution layer is the layer, over the extended reals, for any extents.

  The host joins the gathered features (A channels) and the edge attributes (B channels) along the channel axis into
  one E×(A+B) matrix, multiplies by the whole (A+B)×N weight and adds the bias vector broadcast to every row. A sum
  over the A+B joined channels is the sum over the first A plus the sum over the last B — addition on the extended
  reals is commutative and associative, nothing needs to be finite —, the first A joined channels are the features and
  meet weight rows 0..A-1 (the weight's leading row block), the last B are the attributes and meet rows A..A+B-1 (its
  trailing row block), and the bias vector read as a 1×N row is the same vector. So the host's result is `edgeMsg` of
  the two row blocks; the read-out (one product plus the bias) is `denseOut`.
-/
import proofs.«152837_j64845416235488_1_alg».proof.Proof.LibGraphConv
import proofs.«152837_j64845416235488_1_alg».proof.Proof.LibHostPlainDot
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibHostPlainDot

/-- The bias vector broadcast to a 1×N row and then down E rows, read at `(p, n)`: the vector's entry `n`. -/
theorem biasRows_apply {E N : ℕ} {α : Type} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![E, N]⟩ ![0, 1]) (p : Fin E) (n : Fin N) :
    broadcastInDim ⟨2, ![E, N]⟩ ![0, 1] hb2 (broadcastInDim ⟨2, ![1, N]⟩ ![1] hb1 b) (ix2 p n) = b (ix1 n) := by
  refine (broadcastInDim_apply ![0, 1] hb2 _ (ix2 p n) (ix2 0 n) fun a => ?_).trans ?_
  · match a with
    | ⟨0, _⟩ => rfl
    | ⟨1, _⟩ =>
      show n.val = if N = 1 then 0 else n.val
      split
      · rename_i h1; have := n.isLt; omega
      · rfl
  · refine broadcastInDim_apply ![1] hb1 b (ix2 0 n) (ix1 n) fun a => ?_
    match a with
    | ⟨0, _⟩ =>
      show n.val = if N = 1 then 0 else n.val
      split
      · rename_i h1; have := n.isLt; omega
      · rfl

/-- The bias vector reshaped to a 1×N row, read at `(0, n)`: the vector's entry `n`. -/
theorem biasRow_apply {N : ℕ} {α : Type} (b : (⟨1, ![N]⟩ : Shape).Idx → α)
    (hsc : (⟨1, ![N]⟩ : Shape).ShapeCasts ⟨2, ![1, N]⟩) (n : Fin N) :
    shapeCast ⟨2, ![1, N]⟩ b hsc (ix2 0 n) = b (ix1 n) := by
  refine shapeCast_apply b hsc (ix2 0 n) (ix1 n) ?_
  rw [Shape.rowMajor_val_one, Shape.rowMajor_val_two]
  show n.val = (0 : Fin 1).val * _ + n.val
  simp

/-- The host's layer — join along the channel axis, one product with the whole weight, bias broadcast to every row —
    is the message of the weight's two row blocks and the bias as a row. -/
theorem edge_host_eq {E A B C N : ℕ} (hC : A + B = C)
    (D : DotDims ⟨2, ![E, C]⟩ ⟨2, ![C, N]⟩ ⟨2, ![E, N]⟩) (hD : D = DotDims.plain E C N)
    (h : FVec Ideal ⟨2, ![E, A]⟩ .f32) (e : FVec Ideal ⟨2, ![E, B]⟩ .f32) (W : FVec Ideal ⟨2, ![C, N]⟩ .f32)
    (b : FVec Ideal ⟨1, ![N]⟩ .f32)
    (hc : Shape.Concatenates [(⟨2, ![E, A]⟩ : Shape), ⟨2, ![E, B]⟩] ⟨2, ![E, C]⟩ 1)
    (hb1 : (⟨1, ![N]⟩ : Shape).BroadcastsInDim ⟨2, ![1, N]⟩ ![1])
    (hb2 : (⟨2, ![1, N]⟩ : Shape).BroadcastsInDim ⟨2, ![E, N]⟩ ![0, 1])
    (hs1 : (⟨2, ![C, N]⟩ : Shape).Slices ![0, 0] ⟨2, ![A, N]⟩)
    (hs2 : (⟨2, ![C, N]⟩ : Shape).Slices ![A, 0] ⟨2, ![B, N]⟩)
    (hsc : (⟨1, ![N]⟩ : Shape).ShapeCasts ⟨2, ![1, N]⟩) :
    addf (Host.dotGeneral (F := Ideal) D none
            (concatenate ⟨2, ![E, C]⟩ 1 [⟨⟨2, ![E, A]⟩, h⟩, ⟨⟨2, ![E, B]⟩, e⟩] hc) W)
         (broadcastInDim ⟨2, ![E, N]⟩ ![0, 1] hb2 (broadcastInDim ⟨2, ![1, N]⟩ ![1] hb1 b))
      = edgeMsg h e (extractStridedSlice ⟨2, ![A, N]⟩ ![0, 0] W hs1) (extractStridedSlice ⟨2, ![B, N]⟩ ![A, 0] W hs2)
          (shapeCast ⟨2, ![1, N]⟩ b hsc) := by
  subst hC
  funext j
  obtain ⟨p, n, rfl⟩ : ∃ (p : Fin E) (n : Fin N), j = ix2 p n := ⟨j 0, j 1, eq_ix2 j⟩
  rw [addf_apply, dotGeneral_plain_apply D hD, biasRows_apply, edgeMsg_apply, biasRow_apply, Fin.sum_univ_add]
  congr 1
  congr 1
  · refine Finset.sum_congr rfl fun k _ => ?_
    congr 1
    · refine concatenate_pair_apply_left (1 : Fin 2) h e hc (ix2 p (Fin.castAdd B k)) rfl (ix2 p k) fun b => ?_
      match b with
      | ⟨0, _⟩ => rfl
      | ⟨1, _⟩ => rfl
    · refine (extractStridedSlice_apply ![0, 0] W hs1 (ix2 k n) (ix2 (Fin.castAdd B k) n) fun a => ?_).symm
      match a with
      | ⟨0, _⟩ => show k.val = 0 + k.val; omega
      | ⟨1, _⟩ => show n.val = 0 + n.val; omega
  · refine Finset.sum_congr rfl fun k _ => ?_
    congr 1
    · refine concatenate_pair_apply_right (1 : Fin 2) h e hc (ix2 p (Fin.natAdd A k)) rfl rfl (ix2 p k)
        (fun b hb => ?_) ?_
      · match b, hb with
        | ⟨0, _⟩, _ => rfl
        | ⟨1, _⟩, hb => exact absurd rfl hb
      · show k.val + A = A + k.val; omega
    · refine (extractStridedSlice_apply ![A, 0] W hs2 (ix2 k n) (ix2 (Fin.natAdd A k) n) fun a => ?_).symm
      match a with
      | ⟨0, _⟩ => show A + k.val = A + k.val; rfl
      | ⟨1, _⟩ => show n.val = 0 + n.val; omega

/-- The host's read-out — one product with the weight, bias broadcast to every row — is the dense read-out with the
    bias as a row. -/
theorem dense_host_eq {E A N : ℕ}
    (D : DotDims ⟨2, ![E, A]⟩ ⟨2, ![A, N]⟩ ⟨2, ![E, N]⟩) (hD : D = DotDims.plain E A N)
    (h : FVec Ideal ⟨2, ![E, A]⟩ .f32) (W : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![E, N]⟩ ![0, 1])
    (hsc : (⟨1, ![N]⟩ : Shape).ShapeCasts ⟨2, ![1, N]⟩) :
    addf (Host.dotGeneral (F := Ideal) D none h W)
         (broadcastInDim ⟨2, ![E, N]⟩ ![0, 1] hb2 (broadcastInDim ⟨2, ![1, N]⟩ ![1] hb1 b))
      = denseOut h W (shapeCast ⟨2, ![1, N]⟩ b hsc) := by
  funext j
  obtain ⟨p, n, rfl⟩ : ∃ (p : Fin E) (n : Fin N), j = ix2 p n := ⟨j 0, j 1, eq_ix2 j⟩
  rw [addf_apply, dotGeneral_plain_apply D hD, biasRows_apply, denseOut_apply, biasRow_apply]

end Cert.LibGraphConv

end
-- ==== Proof.LibGcnSteps.lean ====
/-
  A graph-convolution layer taken in three steps, and three such layers as one network, over the extended reals,
  for any extents.

  For node features x (M×K), a weight w (K×N), a bias b and any operator A on M×N matrices (the neighbourhood
  aggregation: gather the rows at the edges' sources, add them into the rows at the edges' targets), one layer is
      y = A (x · w) + b            and with the positive part      y = max (A (x · w) + b) z,   z the zero of the format.
  The three steps are stated separately, each as one whole-array function read entry by entry:
      prod x w (p, n)        = Σ_k x(p, k) · w(k, n)
      addRow a r (p, n)      = a(p, n) + r(0, n)                (the bias as a 1×N row)
      addRowMax a r z (p, n) = max (a(p, n) + r(0, n)) z
  and the network of three layers is their composition around ANY two aggregation operators (one per width), which are
  never opened. Each step is then identified with its two spellings: on a block of rows, a matrix product into a zero
  accumulator of operands first rounded to a narrower format (the identity on the extended reals), and the bias row
  broadcast down the rows, added, maximum with a splat scalar; on whole arrays, the host's dot_general, the bias vector
  broadcast to a row and down the rows, added, maximum with a broadcast scalar constant. Nothing here needs an entry
  to be finite: no sum is rearranged, the two spellings compute the same sums in the same order of operations.
  Each step depends on row p of its row-indexed operand only (prod_rows, addRow_rows, addRowMax_rows), which is what
  lets a kernel that works on blocks of rows be read as the whole-array function.
-/
import proofs.«152837_j64845416235488_1_alg».proof.Proof.LibPlainMatmul
import proofs.«152837_j64845416235488_1_alg».proof.Proof.LibHostPlainDot
import proofs.«152837_j64845416235488_1_alg».proof.Proof.LibGraphConv
import proofs.«152837_j64845416235488_1_alg».proof.Proof.LibGraphConvHost
import Idealize.ShloMosaic.Lib.ValueIdx
import Idealize.ShloMosaic.Lib.Pipeline.Value
import Idealize.ShloMosaic.PureOps.Ideal.Laws

noncomputable section

namespace Cert.LibGcnSteps

open Idealize.ShloMosaic Idealize.ShloMosaic.ValueIdx Cert.LibPlainMatmul Cert.LibHostPlainDot Cert.LibGraphConv

/-! ## The three steps -/

/-- The product: entry `(p, n)` is `Σ_k x(p, k) · w(k, n)`. -/
def prod {M K N : ℕ} (x : FVec Ideal ⟨2, ![M, K]⟩ .f32) (w : FVec Ideal ⟨2, ![K, N]⟩ .f32) :
    FVec Ideal ⟨2, ![M, N]⟩ .f32 :=
  fun j => ∑ k : Fin K, x (ix2 (j 0) k) * w (ix2 k (j 1))

/-- The bias row added to every row. -/
def addRow {M N : ℕ} (a : FVec Ideal ⟨2, ![M, N]⟩ .f32) (r : FVec Ideal ⟨2, ![1, N]⟩ .f32) :
    FVec Ideal ⟨2, ![M, N]⟩ .f32 :=
  fun j => a j + r (ix2 0 (j 1))

/-- The bias row added to every row, then the maximum with `z`. -/
def addRowMax {M N : ℕ} (a : FVec Ideal ⟨2, ![M, N]⟩ .f32) (r : FVec Ideal ⟨2, ![1, N]⟩ .f32) (z : Ideal .f32) :
    FVec Ideal ⟨2, ![M, N]⟩ .f32 :=
  fun j => max (a j + r (ix2 0 (j 1))) z

theorem prod_apply {M K N : ℕ} (x : FVec Ideal ⟨2, ![M, K]⟩ .f32) (w : FVec Ideal ⟨2, ![K, N]⟩ .f32)
    (p : Fin M) (n : Fin N) : prod x w (ix2 p n) = ∑ k : Fin K, x (ix2 p k) * w (ix2 k n) := rfl

theorem addRow_apply {M N : ℕ} (a : FVec Ideal ⟨2, ![M, N]⟩ .f32) (r : FVec Ideal ⟨2, ![1, N]⟩ .f32)
    (p : Fin M) (n : Fin N) : addRow a r (ix2 p n) = a (ix2 p n) + r (ix2 0 n) := rfl

theorem addRowMax_apply {M N : ℕ} (a : FVec Ideal ⟨2, ![M, N]⟩ .f32) (r : FVec Ideal ⟨2, ![1, N]⟩ .f32)
    (z : Ideal .f32) (p : Fin M) (n : Fin N) :
    addRowMax a r z (ix2 p n) = max (a (ix2 p n) + r (ix2 0 n)) z := rfl

/-! ## Each step looks at one row of its row-indexed operand -/

/-- Row `q` of the product of a block `x'` is row `p` of the product of `x` when row `q` of `x'` is row `p` of `x`. -/
theorem prod_rows {M M' K N : ℕ} (x : FVec Ideal ⟨2, ![M, K]⟩ .f32) (x' : FVec Ideal ⟨2, ![M', K]⟩ .f32)
    (w : FVec Ideal ⟨2, ![K, N]⟩ .f32) (p : Fin M) (q : Fin M') (n : Fin N)
    (hx : ∀ k : Fin K, x' (ix2 q k) = x (ix2 p k)) : prod x' w (ix2 q n) = prod x w (ix2 p n) := by
  rw [prod_apply, prod_apply]
  exact Finset.sum_congr rfl fun k _ => by rw [hx k]

theorem addRow_rows {M M' N : ℕ} (a : FVec Ideal ⟨2, ![M, N]⟩ .f32) (a' : FVec Ideal ⟨2, ![M', N]⟩ .f32)
    (r : FVec Ideal ⟨2, ![1, N]⟩ .f32) (p : Fin M) (q : Fin M') (n : Fin N)
    (ha : a' (ix2 q n) = a (ix2 p n)) : addRow a' r (ix2 q n) = addRow a r (ix2 p n) := by
  rw [addRow_apply, addRow_apply, ha]

theorem addRowMax_rows {M M' N : ℕ} (a : FVec Ideal ⟨2, ![M, N]⟩ .f32) (a' : FVec Ideal ⟨2, ![M', N]⟩ .f32)
    (r : FVec Ideal ⟨2, ![1, N]⟩ .f32) (z : Ideal .f32) (p : Fin M) (q : Fin M') (n : Fin N)
    (ha : a' (ix2 q n) = a (ix2 p n)) : addRowMax a' r z (ix2 q n) = addRowMax a r z (ix2 p n) := by
  rw [addRowMax_apply, addRowMax_apply, ha]

/-! ## The spelling on a block of rows -/

/-- A matrix product into the zero accumulator of operands rounded to a narrower format is the product. -/
theorem prod_tile {R K N : ℕ} {ψ : FTy} (D : DotDims ⟨2, ![R, K]⟩ ⟨2, ![K, N]⟩ ⟨2, ![R, N]⟩)
    (hD : D = DotDims.plain R K N) (x : FVec Ideal ⟨2, ![R, K]⟩ .f32) (w : FVec Ideal ⟨2, ![K, N]⟩ .f32)
    (hψ : ψ.bits < FTy.bits .f32) :
    matmul D none (truncf ψ x hψ) (truncf ψ w hψ) (constant (F := Ideal) ⟨2, ![R, N]⟩ .f32 0x00000000#32) = prod x w := by
  funext j
  obtain ⟨p, n, rfl⟩ : ∃ (p : Fin R) (n : Fin N), j = ix2 p n := ⟨j 0, j 1, eq_ix2 j⟩
  rw [matmul_eq_plain_zero_apply D hD, prod_apply]
  rfl

/-- The bias row broadcast down the rows and added is `addRow`. -/
theorem addRow_tile {R N : ℕ} (a : FVec Ideal ⟨2, ![R, N]⟩ .f32) (r : FVec Ideal ⟨2, ![1, N]⟩ .f32)
    (hb : (⟨2, ![1, N]⟩ : Shape).Broadcasts ⟨2, ![R, N]⟩) :
    addf a (broadcastTo ⟨2, ![R, N]⟩ r hb) = addRow a r := by
  funext j
  obtain ⟨p, n, rfl⟩ : ∃ (p : Fin R) (n : Fin N), j = ix2 p n := ⟨j 0, j 1, eq_ix2 j⟩
  rw [addf_apply, rowBroadcast_apply, addRow_apply]

/-- The same followed by the maximum with a splat scalar is `addRowMax`. -/
theorem addRowMax_tile {R N : ℕ} (a : FVec Ideal ⟨2, ![R, N]⟩ .f32) (r : FVec Ideal ⟨2, ![1, N]⟩ .f32)
    (z : Ideal .f32) (hb : (⟨2, ![1, N]⟩ : Shape).Broadcasts ⟨2, ![R, N]⟩) :
    maximumf (addf a (broadcastTo ⟨2, ![R, N]⟩ r hb)) (broadcast ⟨2, ![R, N]⟩ z) = addRowMax a r z := by
  funext j
  obtain ⟨p, n, rfl⟩ : ∃ (p : Fin R) (n : Fin N), j = ix2 p n := ⟨j 0, j 1, eq_ix2 j⟩
  rw [maximumf_apply, addf_apply, rowBroadcast_apply, broadcast_apply, addRowMax_apply]

/-! ## The spelling on whole arrays -/

/-- The host's product with the plain dimension numbers is the product. -/
theorem prod_host {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) :
    Host.dotGeneral (F := Ideal) D none x w = prod x w := by
  funext j
  obtain ⟨p, n, rfl⟩ : ∃ (p : Fin M) (n : Fin N), j = ix2 p n := ⟨j 0, j 1, eq_ix2 j⟩
  rw [dotGeneral_plain_apply D hD, prod_apply]

/-- The bias vector broadcast to a row and down the rows, added, is `addRow` of the vector read as a row. -/
theorem addRow_host {M N : ℕ} (a : FVec Ideal ⟨2, ![M, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hsc : (⟨1, ![N]⟩ : Shape).ShapeCasts ⟨2, ![1, N]⟩) :
    addf a (broadcastInDim ⟨2, ![M, N]⟩ ![0, 1] hb2 (broadcastInDim ⟨2, ![1, N]⟩ ![1] hb1 b))
      = addRow a (shapeCast ⟨2, ![1, N]⟩ b hsc) := by
  funext j
  obtain ⟨p, n, rfl⟩ : ∃ (p : Fin M) (n : Fin N), j = ix2 p n := ⟨j 0, j 1, eq_ix2 j⟩
  rw [addf_apply, biasRows_apply, addRow_apply, biasRow_apply]

/-- A scalar constant broadcast to any shape reads the constant's value at every index. -/
theorem splat_apply {t : Shape} (h : (⟨0, ![]⟩ : Shape).BroadcastsInDim t ![]) (bits : BitVec (FTy.bits .f32)) (j : t.Idx) :
    broadcastInDim t ![] h (constant (F := Ideal) ⟨0, ![]⟩ .f32 bits) j = Ideal.ofBits .f32 bits := by
  rw [broadcastInDim_apply ![] h _ j ix0 (fun a => a.elim0), constant_apply]

/-- The same followed by the maximum with a broadcast scalar constant is `addRowMax` at that constant's value. -/
theorem addRowMax_host {M N : ℕ} (a : FVec Ideal ⟨2, ![M, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hsc : (⟨1, ![N]⟩ : Shape).ShapeCasts ⟨2, ![1, N]⟩)
    (hz : (⟨0, ![]⟩ : Shape).BroadcastsInDim ⟨2, ![M, N]⟩ ![]) (bits : BitVec (FTy.bits .f32)) :
    maximumf (addf a (broadcastInDim ⟨2, ![M, N]⟩ ![0, 1] hb2 (broadcastInDim ⟨2, ![1, N]⟩ ![1] hb1 b)))
        (broadcastInDim ⟨2, ![M, N]⟩ ![] hz (constant (F := Ideal) ⟨0, ![]⟩ .f32 bits))
      = addRowMax a (shapeCast ⟨2, ![1, N]⟩ b hsc) (Ideal.ofBits .f32 bits) := by
  funext j
  obtain ⟨p, n, rfl⟩ : ∃ (p : Fin M) (n : Fin N), j = ix2 p n := ⟨j 0, j 1, eq_ix2 j⟩
  rw [maximumf_apply, addf_apply, biasRows_apply, splat_apply, addRowMax_apply, biasRow_apply]

/-! ## Three layers as one network -/

/-- Three layers around any aggregation operators `A` (on M×H matrices) and `A'` (on M×C): the first two with the
    positive part against `z`, the last without. The biases are rows. -/
def net {M K H C : ℕ} (A : FVec Ideal ⟨2, ![M, H]⟩ .f32 → FVec Ideal ⟨2, ![M, H]⟩ .f32)
    (A' : FVec Ideal ⟨2, ![M, C]⟩ .f32 → FVec Ideal ⟨2, ![M, C]⟩ .f32) (z : Ideal .f32)
    (x : FVec Ideal ⟨2, ![M, K]⟩ .f32) (w0 : FVec Ideal ⟨2, ![K, H]⟩ .f32) (r0 : FVec Ideal ⟨2, ![1, H]⟩ .f32)
    (w1 : FVec Ideal ⟨2, ![H, H]⟩ .f32) (r1 : FVec Ideal ⟨2, ![1, H]⟩ .f32)
    (w2 : FVec Ideal ⟨2, ![H, C]⟩ .f32) (r2 : FVec Ideal ⟨2, ![1, C]⟩ .f32) : FVec Ideal ⟨2, ![M, C]⟩ .f32 :=
  addRow (A' (prod (addRowMax (A (prod (addRowMax (A (prod x w0)) r0 z) w1)) r1 z) w2)) r2

end Cert.LibGcnSteps

end
-- ==== Proof.KBlock0.lean ====
/-
  The first product region read as one whole-array function.

  The region runs over ten points. Point t stages rows 5000·t … 5000·t + 4999 of the node features (all 128 columns)
  and the whole 128×128 weight, and writes back the same rows of the output. On a block the body computes the product
  of the block with the weight: both operands rounded to a narrower format (the identity on the extended reals),
  multiplied into a zero accumulator. Row p of a product depends on row p of the left operand only, so what point t
  writes back is rows 5000·t … of the product of the WHOLE feature array with the weight. The ten blocks tile the
  50000 rows (row r lies in the block of point r / 5000), hence the output array ends holding that product, whatever
  the arrays held when the region was entered.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets0 : (![0, 0] : Fin 2 → Nat) = fun _ => 0 := funext fun a => by fin_cases a <;> rfl

/-- The body's arithmetic on a block of rows is the product of the block with the weight. -/
theorem pay0_eq (x0 : Vec Ideal S5000x128 .f32) (x1 : Vec Ideal S128x128 .f32) :
    k0_pay1 x0 x1 = prod x0 x1 := by
  unfold k0_pay1
  exact prod_tile _ rfl x0 x1 _

/-- The block indices at each of the ten points: the feature and output windows are at block row t, column block 0;
    the weight window stays at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row q of the feature block at point t is row 5000·t + q of the feature array. -/
theorem rows_block0 (c : Dev nD) (t : Fin cfg0.N) (q : Fin 5000) (k : Fin 128) (p : Fin 50000)
    (hp : p.val = 5000 * t.val + q.val) :
    (iblk0 V c 0 t : Vec Ideal S5000x128 .f32) (ix2 q k) = (V c main_arg0 : S50000x128.Idx → Elt Ideal .f32) (ix2 p k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 5000 + 1 * q.val = p.val; rw [e0, hp]; omega
  | ⟨1, _⟩ => show win0_0.index t (1 : Fin 2) * 128 + 1 * k.val = k.val; rw [e1]; omega

/-- The weight block at every point is the whole weight. -/
theorem weight_block0 (c : Dev nD) (t : Fin cfg0.N) :
    (iblk0 V c 1 t : Vec Ideal S128x128 .f32) = (V c main_arg2 : S128x128.Idx → Elt Ideal .f32) := by
  obtain ⟨-, -, e2, e3, -⟩ := index_facts0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the product of the whole arrays. -/
theorem flushed0_eq (c : Dev nD) (t : Fin cfg0.N) :
    (dat0 (F := Ideal) V c).flushed 2 t
      = ((cfg0.win 2).blk t).view.read (Elt Ideal) (prod (M := 50000) (K := 128) (N := 128) (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  rw [pay0_eq, weight_block0]
  funext y
  obtain ⟨q, n, rfl⟩ : ∃ (q : Fin 5000) (n : Fin 128), y = ix2 q n := ⟨y 0, y 1, eq_ix2 y⟩
  obtain ⟨-, -, -, -, e4, e5⟩ := index_facts0 t
  have hN : cfg0.N = 10 := N_0
  have ht : t.val < 10 := hN ▸ t.isLt
  have hemb : ((cfg0.win 2).blk t).view.emb (ix2 q n)
      = (ix2 (⟨5000 * t.val + q.val, by omega⟩ : Fin 50000) n : S50000x128.Idx) := by
    funext a
    apply Fin.ext
    match a with
    | ⟨0, _⟩ => show win0_2.index t (0 : Fin 2) * 5000 + 1 * q.val = 5000 * t.val + q.val; rw [e4]; omega
    | ⟨1, _⟩ => show win0_2.index t (1 : Fin 2) * 128 + 1 * n.val = n.val; rw [e5]; omega
  show prod (iblk0 V c 0 t) (V c main_arg2) (ix2 q n)
      = prod (M := 50000) (K := 128) (N := 128) (V c main_arg0) (V c main_arg2) (((cfg0.win 2).blk t).view.emb (ix2 q n))
  rw [hemb]
  exact prod_rows _ _ _ _ q n fun k => rows_block0 V c t q k _ rfl

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every index of the output array is in some point's block: row r in that of point r / 5000. -/
theorem cover0 (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, e4, e5⟩ := index_facts0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The output array after the region is the product of the feature array and the weight as the region found them. -/
theorem arr0 (c : Dev nD) :
    (dat0 (F := Ideal) V c).arrAt 2 cfg0.N = Cert.LibGcnSteps.prod (V c main_arg0) (V c main_arg2) :=
  (dat0 V c).arrAt_eq_of_cover 2 (prod (M := 50000) (K := 128) (N := 128) (V c main_arg0) (V c main_arg2))
    (fun t _ => flushed0_eq V c t) cover0

end Cert.KernelIdeal.KBlocks

end
-- ==== Proof.KBlock1.lean ====
/-
  The first bias-and-positive-part region read as one whole-array function.

  The region runs over ten points. Point t stages rows 5000·t … 5000·t + 4999 of its row-indexed operand (all 128
  columns) and the whole 1×128 bias row, and writes back the same rows of the output. On a block the body adds the bias
  row to every row and takes the maximum with the zero of the format, entry by entry. Entry (p, n) of that function
  depends on entry (p, n) of the operand only, so what point t writes back is rows 5000·t … of the same function of
  the WHOLE operand. The ten blocks tile the 50000 rows (row r lies in the block of point r / 5000), hence the output
  array ends holding that function of the arrays the region was entered with, whatever they held.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets1 : (![0, 0] : Fin 2 → Nat) = fun _ => 0 := funext fun a => by fin_cases a <;> rfl

/-- The body's arithmetic on a block of rows: the bias row added to every row and the maximum with zero taken. -/
theorem pay1_eq (x0 : Vec Ideal S5000x128 .f32) (x1 : Vec Ideal S1x128 .f32) :
    k1_pay1 x0 x1 = addRowMax x0 x1 (Ideal.ofBits .f32 0x00000000#32) := by
  unfold k1_pay1
  simp only [shapeCast_self]
  exact addRowMax_tile x0 x1 _ _

/-- The block indices at each of the ten points: the operand and output windows are at block row t, column block 0;
    the bias window stays at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row q of the operand block at point t is row 5000·t + q of the operand array. -/
theorem rows_block1 (c : Dev nD) (t : Fin cfg1.N) (q : Fin 5000) (n : Fin 128) (p : Fin 50000)
    (hp : p.val = 5000 * t.val + q.val) :
    (iblk1 V c 0 t : Vec Ideal S5000x128 .f32) (ix2 q n) = (V c main_v8 : S50000x128.Idx → Elt Ideal .f32) (ix2 p n) := by
  obtain ⟨e0, e1, -⟩ := index_facts1 t
  unfold iblk1
  rw [View.read_apply]
  show V c main_v8 _ = V c main_v8 _
  congr 1
  funext a
  apply Fin.ext
  match a with
  | ⟨0, _⟩ => show win1_0.index t (0 : Fin 2) * 5000 + 1 * q.val = p.val; rw [e0, hp]; omega
  | ⟨1, _⟩ => show win1_0.index t (1 : Fin 2) * 128 + 1 * n.val = n.val; rw [e1]; omega

/-- The bias block at every point is the whole bias row. -/
theorem bias_block1 (c : Dev nD) (t : Fin cfg1.N) :
    (iblk1 V c 1 t : Vec Ideal S1x128 .f32) = (V c main_v9 : S1x128.Idx → Elt Ideal .f32) := by
  obtain ⟨-, -, e2, e3, -⟩ := index_facts1 t
  funext y
  unfold iblk1
  rw [View.read_apply]
  show V c main_v9 _ = V c main_v9 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- What point t writes back is block t of the same function of the whole arrays. -/
theorem flushed1_eq (c : Dev nD) (t : Fin cfg1.N) :
    (dat1 (F := Ideal) V c).flushed 2 t
      = ((cfg1.win 2).blk t).view.read (Elt Ideal) (addRowMax (M := 50000) (N := 128) (V c main_v8) (V c main_v9) (Ideal.ofBits .f32 0x00000000#32)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S1x128) zeroOffsets1]
  rw [pay1_eq, bias_block1]
  funext y
  obtain ⟨q, n, rfl⟩ : ∃ (q : Fin 5000) (n : Fin 128), y = ix2 q n := ⟨y 0, y 1, eq_ix2 y⟩
  obtain ⟨-, -, -, -, e4, e5⟩ := index_facts1 t
  have hN : cfg1.N = 10 := N_1
  have ht : t.val < 10 := hN ▸ t.isLt
  have hemb : ((cfg1.win 2).blk t).view.emb (ix2 q n)
      = (ix2 (⟨5000 * t.val + q.val, by omega⟩ : Fin 50000) n : S50000x128.Idx) := by
    funext a
    apply Fin.ext
    match a with
    | ⟨0, _⟩ => show win1_2.index t (0 : Fin 2) * 5000 + 1 * q.val = 5000 * t.val + q.val; rw [e4]; omega
    | ⟨1, _⟩ => show win1_2.index t (1 : Fin 2) * 128 + 1 * n.val = n.val; rw [e5]; omega
  show addRowMax (iblk1 V c 0 t) (V c main_v9) (Ideal.ofBits .f32 0x00000000#32) (ix2 q n)
      = addRowMax (M := 50000) (N := 128) (V c main_v8) (V c main_v9) (Ideal.ofBits .f32 0x00000000#32) (((cfg1.win 2).blk t).view.emb (ix2 q n))
  rw [hemb]
  exact addRowMax_rows _ _ _ _ _ q n (rows_block1 V c t q n _ rfl)

/-- An index of the output array is in point t's block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v10).slice (win1_2.rect t)).set ↔ _
  rw [View.set_slice_whole, Rect.mem_set_unit]
  exact Iff.rfl

/-- Every index of the output array is in some point's block: row r in that of point r / 5000. -/
theorem cover1 (i : S50000x128.Idx) :
    ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨-, -, -, -, e4, e5⟩ := index_facts1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The output array after the region is that function of its operand array and the bias row as the region found them. -/
theorem arr1 (c : Dev nD) :
    (dat1 (F := Ideal) V c).arrAt 2 cfg1.N = Cert.LibGcnSteps.addRowMax (V c main_v8) (V c main_v9) (Ideal.ofBits .f32 0x00000000#32) :=
  (dat1 V c).arrAt_eq_of_cover 2 (addRowMax (M := 50000) (N := 128) (V c main_v8) (V c main_v9) (Ideal.ofBits .f32 0x00000000#32))
    (fun t _ => flushed1_eq V c t) cover1

end Cert.KernelIdeal.KBlocks

end
-- ==== Proof.KBlock2.lean ====
/-
  The second product region read as one whole-array function.

  The region runs over ten points. Point t stages rows 5000·t … 5000·t + 4999 of its row-indexed operand (all 128
  columns) and the whole 128×128 weight, and writes back the same rows of the output. On a block the body computes the
  product of the block with the weight: both operands rounded to a narrower format (the identity on the extended
  reals), multiplied into a zero accumulator. Row p of a product depends on row p of the left operand only, so what
  point t writes back is rows 5000·t … of the product of the WHOLE operand with the weight. The ten blocks tile the
  50000 rows (row r lies in the block of point r / 5000), hence the output array ends holding that product, whatever
  the arrays held when the region was entered.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets2 : (![0, 0] : Fin 2 → Nat) = fun _ => 0 := funext fun a => by fin_cases a <;> rfl

/-- The body's arithmetic on a block of rows is the product of the block with the weight. -/
theorem pay2_eq (x0 : Vec Ideal S5000x128 .f32) (x1 : Vec Ideal S128x128 .f32) :
    k2_pay1 x0 x1 = prod x0 x1 := by
  unfold k2_pay1
  rw [shapeCast_self]
  exact prod_tile _ rfl x0 x1 _

/-- The block indices at each of the ten points: the operand and output windows are at block row t, column block 0;
    the weight window stays at block (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row q of the operand block at point t is row 5000·t + q of the operand array. -/
theorem rows_block2 (c : Dev nD) (t : Fin cfg2.N) (q : Fin 5000) (k : Fin 128) (p : Fin 50000)
    (hp : p.val = 5000 * t.val + q.val) :
    (iblk2 V c 0 t : Vec Ideal S5000x128 .f32) (ix2 q k) = (V c main_v10 : S50000x128.Idx → Elt Ideal .f32) (ix2 p k) := by
  obtain ⟨e0, e1, -⟩ := index_facts2 t
  unfold iblk2
  rw [View.read_apply]
  show V c main_v10 _ = V c main_v10 _
  congr 1
  funext a
  apply Fin.ext
  match a with
  | ⟨0, _⟩ => show win2_0.index t (0 : Fin 2) * 5000 + 1 * q.val = p.val; rw [e0, hp]; omega
  | ⟨1, _⟩ => show win2_0.index t (1 : Fin 2) * 128 + 1 * k.val = k.val; rw [e1]; omega

/-- The weight block at every point is the whole weight. -/
theorem weight_block2 (c : Dev nD) (t : Fin cfg2.N) :
    (iblk2 V c 1 t : Vec Ideal S128x128 .f32) = (V c main_arg4 : S128x128.Idx → Elt Ideal .f32) := by
  obtain ⟨-, -, e2, e3, -⟩ := index_facts2 t
  funext y
  unfold iblk2
  rw [View.read_apply]
  show V c main_arg4 _ = V c main_arg4 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point t writes back is block t of the product of the whole arrays. -/
theorem flushed2_eq (c : Dev nD) (t : Fin cfg2.N) :
    (dat2 (F := Ideal) V c).flushed 2 t
      = ((cfg2.win 2).blk t).view.read (Elt Ideal) (prod (M := 50000) (K := 128) (N := 128) (V c main_v10) (V c main_arg4)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  rw [pay2_eq, weight_block2]
  funext y
  obtain ⟨q, n, rfl⟩ : ∃ (q : Fin 5000) (n : Fin 128), y = ix2 q n := ⟨y 0, y 1, eq_ix2 y⟩
  obtain ⟨-, -, -, -, e4, e5⟩ := index_facts2 t
  have hN : cfg2.N = 10 := N_2
  have ht : t.val < 10 := hN ▸ t.isLt
  have hemb : ((cfg2.win 2).blk t).view.emb (ix2 q n)
      = (ix2 (⟨5000 * t.val + q.val, by omega⟩ : Fin 50000) n : S50000x128.Idx) := by
    funext a
    apply Fin.ext
    match a with
    | ⟨0, _⟩ => show win2_2.index t (0 : Fin 2) * 5000 + 1 * q.val = 5000 * t.val + q.val; rw [e4]; omega
    | ⟨1, _⟩ => show win2_2.index t (1 : Fin 2) * 128 + 1 * n.val = n.val; rw [e5]; omega
  show prod (iblk2 V c 0 t) (V c main_arg4) (ix2 q n)
      = prod (M := 50000) (K := 128) (N := 128) (V c main_v10) (V c main_arg4) (((cfg2.win 2).blk t).view.emb (ix2 q n))
  rw [hemb]
  exact prod_rows _ _ _ _ q n fun k => rows_block2 V c t q k _ rfl

/-- An index of the output array is in point t's block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v11).slice (win2_2.rect t)).set ↔ _
  rw [View.set_slice_whole, Rect.mem_set_unit]
  exact Iff.rfl

/-- Every index of the output array is in some point's block: row r in that of point r / 5000. -/
theorem cover2 (i : S50000x128.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  have ht : (i 0).val / 5000 < cfg2.N := by rw [hN]; omega
  obtain ⟨-, -, -, -, e4, e5⟩ := index_facts2 ⟨(i 0).val / 5000, ht⟩
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The output array after the region is the product of its operand array and the weight as the region found them. -/
theorem arr2 (c : Dev nD) :
    (dat2 (F := Ideal) V c).arrAt 2 cfg2.N = Cert.LibGcnSteps.prod (V c main_v10) (V c main_arg4) :=
  (dat2 V c).arrAt_eq_of_cover 2 (prod (M := 50000) (K := 128) (N := 128) (V c main_v10) (V c main_arg4))
    (fun t _ => flushed2_eq V c t) cover2

end Cert.KernelIdeal.KBlocks

end
-- ==== Proof.KBlock3.lean ====
/-
  The second bias-and-positive-part region read as one whole-array function.

  The region runs over ten points. Point t stages rows 5000·t … 5000·t + 4999 of its row-indexed operand (all 128
  columns) and the whole 1×128 bias row, and writes back the same rows of the output. On a block the body adds the bias
  row to every row and takes the maximum with the zero of the format, entry by entry. Entry (p, n) of that function
  depends on entry (p, n) of the operand only, so what point t writes back is rows 5000·t … of the same function of
  the WHOLE operand. The ten blocks tile the 50000 rows (row r lies in the block of point r / 5000), hence the output
  array ends holding that function of the arrays the region was entered with, whatever they held.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets3 : (![0, 0] : Fin 2 → Nat) = fun _ => 0 := funext fun a => by fin_cases a <;> rfl

/-- The body's arithmetic on a block of rows: the bias row added to every row and the maximum with zero taken. -/
theorem pay3_eq (x0 : Vec Ideal S5000x128 .f32) (x1 : Vec Ideal S1x128 .f32) :
    k3_pay1 x0 x1 = addRowMax x0 x1 (Ideal.ofBits .f32 0x00000000#32) := by
  unfold k3_pay1
  simp only [shapeCast_self]
  exact addRowMax_tile x0 x1 _ _

/-- The block indices at each of the ten points: the operand and output windows are at block row t, column block 0;
    the bias window stays at block (0, 0). -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row q of the operand block at point t is row 5000·t + q of the operand array. -/
theorem rows_block3 (c : Dev nD) (t : Fin cfg3.N) (q : Fin 5000) (n : Fin 128) (p : Fin 50000)
    (hp : p.val = 5000 * t.val + q.val) :
    (iblk3 V c 0 t : Vec Ideal S5000x128 .f32) (ix2 q n) = (V c main_v15 : S50000x128.Idx → Elt Ideal .f32) (ix2 p n) := by
  obtain ⟨e0, e1, -⟩ := index_facts3 t
  unfold iblk3
  rw [View.read_apply]
  show V c main_v15 _ = V c main_v15 _
  congr 1
  funext a
  apply Fin.ext
  match a with
  | ⟨0, _⟩ => show win3_0.index t (0 : Fin 2) * 5000 + 1 * q.val = p.val; rw [e0, hp]; omega
  | ⟨1, _⟩ => show win3_0.index t (1 : Fin 2) * 128 + 1 * n.val = n.val; rw [e1]; omega

/-- The bias block at every point is the whole bias row. -/
theorem bias_block3 (c : Dev nD) (t : Fin cfg3.N) :
    (iblk3 V c 1 t : Vec Ideal S1x128 .f32) = (V c main_v16 : S1x128.Idx → Elt Ideal .f32) := by
  obtain ⟨-, -, e2, e3, -⟩ := index_facts3 t
  funext y
  unfold iblk3
  rw [View.read_apply]
  show V c main_v16 _ = V c main_v16 _
  congr 1
  funext a
  apply Fin.ext
  match a with
  | ⟨0, _⟩ => show win3_1.index t (0 : Fin 2) * 1 + 1 * (y 0).val = (y 0).val; rw [e2]; omega
  | ⟨1, _⟩ => show win3_1.index t (1 : Fin 2) * 128 + 1 * (y 1).val = (y 1).val; rw [e3]; omega

/-- What point t writes back is block t of the same function of the whole arrays. -/
theorem flushed3_eq (c : Dev nD) (t : Fin cfg3.N) :
    (dat3 (F := Ideal) V c).flushed 2 t
      = ((cfg3.win 2).blk t).view.read (Elt Ideal) (addRowMax (M := 50000) (N := 128) (V c main_v15) (V c main_v16) (Ideal.ofBits .f32 0x00000000#32)) := by
  show (cfg3.win 2).cut (grid3.coords t) ((dat3 V c).after 2 t) = _
  rw [after3_2]
  unfold out3_2
  rw [View.canon_unit_zero zeroOffsets3]
  simp only [View.ld_unit_zero (S := S5000x128) zeroOffsets3, View.ld_unit_zero (S := S1x128) zeroOffsets3]
  rw [pay3_eq, bias_block3]
  funext y
  obtain ⟨q, n, rfl⟩ : ∃ (q : Fin 5000) (n : Fin 128), y = ix2 q n := ⟨y 0, y 1, eq_ix2 y⟩
  obtain ⟨-, -, -, -, e4, e5⟩ := index_facts3 t
  have hN : cfg3.N = 10 := N_3
  have ht : t.val < 10 := hN ▸ t.isLt
  have hemb : ((cfg3.win 2).blk t).view.emb (ix2 q n)
      = (ix2 (⟨5000 * t.val + q.val, by omega⟩ : Fin 50000) n : S50000x128.Idx) := by
    funext a
    apply Fin.ext
    match a with
    | ⟨0, _⟩ => show win3_2.index t (0 : Fin 2) * 5000 + 1 * q.val = 5000 * t.val + q.val; rw [e4]; omega
    | ⟨1, _⟩ => show win3_2.index t (1 : Fin 2) * 128 + 1 * n.val = n.val; rw [e5]; omega
  show addRowMax (iblk3 V c 0 t) (V c main_v16) (Ideal.ofBits .f32 0x00000000#32) (ix2 q n)
      = addRowMax (M := 50000) (N := 128) (V c main_v15) (V c main_v16) (Ideal.ofBits .f32 0x00000000#32) (((cfg3.win 2).blk t).view.emb (ix2 q n))
  rw [hemb]
  exact addRowMax_rows _ _ _ _ _ q n (rows_block3 V c t q n _ rfl)

/-- An index of the output array is in point t's block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v17).slice (win3_2.rect t)).set ↔ _
  rw [View.set_slice_whole, Rect.mem_set_unit]
  exact Iff.rfl

/-- Every index of the output array is in some point's block: row r in that of point r / 5000. -/
theorem cover3 (i : S50000x128.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  have ht : (i 0).val / 5000 < cfg3.N := by rw [hN]; omega
  obtain ⟨-, -, -, -, e4, e5⟩ := index_facts3 ⟨(i 0).val / 5000, ht⟩
  refine ⟨⟨(i 0).val / 5000, ht⟩, flush3_2 _, ?_⟩
  rw [mem_block3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

/-- The output array after the region is that function of its operand array and the bias row as the region found them. -/
theorem arr3 (c : Dev nD) :
    (dat3 (F := Ideal) V c).arrAt 2 cfg3.N = Cert.LibGcnSteps.addRowMax (V c main_v15) (V c main_v16) (Ideal.ofBits .f32 0x00000000#32) :=
  (dat3 V c).arrAt_eq_of_cover 2 (addRowMax (M := 50000) (N := 128) (V c main_v15) (V c main_v16) (Ideal.ofBits .f32 0x00000000#32))
    (fun t _ => flushed3_eq V c t) cover3

end Cert.KernelIdeal.KBlocks

end
-- ==== Proof.KBlock4.lean ====
/-
  The third product region read as one whole-array function.

  The region runs over ten points. Point t stages rows 5000·t … 5000·t + 4999 of its row-indexed operand (all 128
  columns) and the whole 128×40 weight, and writes back the same rows of the output. On a block the body computes the
  product of the block with the weight: both operands rounded to a narrower format (the identity on the extended
  reals), multiplied into a zero accumulator. Row p of a product depends on row p of the left operand only, so what
  point t writes back is rows 5000·t … of the product of the WHOLE operand with the weight. The ten blocks tile the
  50000 rows (row r lies in the block of point r / 5000), hence the output array ends holding that product, whatever
  the arrays held when the region was entered.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets4 : (![0, 0] : Fin 2 → Nat) = fun _ => 0 := funext fun a => by fin_cases a <;> rfl

/-- The body's arithmetic on a block of rows is the product of the block with the weight. -/
theorem pay4_eq (x0 : Vec Ideal S5000x128 .f32) (x1 : Vec Ideal S128x40 .f32) :
    k4_pay1 x0 x1 = prod x0 x1 := by
  unfold k4_pay1
  rw [shapeCast_self]
  exact prod_tile _ rfl x0 x1 _

/-- The block indices at each of the ten points: the operand and output windows are at block row t, column block 0;
    the weight window stays at block (0, 0). -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row q of the operand block at point t is row 5000·t + q of the operand array. -/
theorem rows_block4 (c : Dev nD) (t : Fin cfg4.N) (q : Fin 5000) (k : Fin 128) (p : Fin 50000)
    (hp : p.val = 5000 * t.val + q.val) :
    (iblk4 V c 0 t : Vec Ideal S5000x128 .f32) (ix2 q k) = (V c main_v17 : S50000x128.Idx → Elt Ideal .f32) (ix2 p k) := by
  obtain ⟨e0, e1, -⟩ := index_facts4 t
  unfold iblk4
  rw [View.read_apply]
  show V c main_v17 _ = V c main_v17 _
  congr 1
  funext a
  apply Fin.ext
  match a with
  | ⟨0, _⟩ => show win4_0.index t (0 : Fin 2) * 5000 + 1 * q.val = p.val; rw [e0, hp]; omega
  | ⟨1, _⟩ => show win4_0.index t (1 : Fin 2) * 128 + 1 * k.val = k.val; rw [e1]; omega

/-- The weight block at every point is the whole weight. -/
theorem weight_block4 (c : Dev nD) (t : Fin cfg4.N) :
    (iblk4 V c 1 t : Vec Ideal S128x40 .f32) = (V c main_arg6 : S128x40.Idx → Elt Ideal .f32) := by
  obtain ⟨-, -, e2, e3, -⟩ := index_facts4 t
  funext y
  unfold iblk4
  rw [View.read_apply]
  show V c main_arg6 _ = V c main_arg6 _
  congr 1
  funext a
  apply Fin.ext
  match a with
  | ⟨0, _⟩ => show win4_1.index t (0 : Fin 2) * 128 + 1 * (y 0).val = (y 0).val; rw [e2]; omega
  | ⟨1, _⟩ => show win4_1.index t (1 : Fin 2) * 40 + 1 * (y 1).val = (y 1).val; rw [e3]; omega

/-- What point t writes back is block t of the product of the whole arrays. -/
theorem flushed4_eq (c : Dev nD) (t : Fin cfg4.N) :
    (dat4 (F := Ideal) V c).flushed 2 t
      = ((cfg4.win 2).blk t).view.read (Elt Ideal) (prod (M := 50000) (K := 128) (N := 40) (V c main_v17) (V c main_arg6)) := by
  show (cfg4.win 2).cut (grid4.coords t) ((dat4 V c).after 2 t) = _
  rw [after4_2]
  unfold out4_2
  rw [View.canon_unit_zero zeroOffsets4]
  simp only [View.ld_unit_zero (S := S5000x128) zeroOffsets4, View.ld_unit_zero (S := S128x40) zeroOffsets4]
  rw [pay4_eq, weight_block4]
  funext y
  obtain ⟨q, n, rfl⟩ : ∃ (q : Fin 5000) (n : Fin 40), y = ix2 q n := ⟨y 0, y 1, eq_ix2 y⟩
  obtain ⟨-, -, -, -, e4, e5⟩ := index_facts4 t
  have hN : cfg4.N = 10 := N_4
  have ht : t.val < 10 := hN ▸ t.isLt
  have hemb : ((cfg4.win 2).blk t).view.emb (ix2 q n)
      = (ix2 (⟨5000 * t.val + q.val, by omega⟩ : Fin 50000) n : S50000x40.Idx) := by
    funext a
    apply Fin.ext
    match a with
    | ⟨0, _⟩ => show win4_2.index t (0 : Fin 2) * 5000 + 1 * q.val = 5000 * t.val + q.val; rw [e4]; omega
    | ⟨1, _⟩ => show win4_2.index t (1 : Fin 2) * 40 + 1 * n.val = n.val; rw [e5]; omega
  show prod (iblk4 V c 0 t) (V c main_arg6) (ix2 q n)
      = prod (M := 50000) (K := 128) (N := 40) (V c main_v17) (V c main_arg6) (((cfg4.win 2).blk t).view.emb (ix2 q n))
  rw [hemb]
  exact prod_rows _ _ _ _ q n fun k => rows_block4 V c t q k _ rfl

/-- An index of the output array is in point t's block iff each coordinate is in the block's range on its axis. -/
theorem mem_block4 (t : Fin cfg4.N) (i : S50000x40.Idx) :
    i ∈ ((cfg4.win 2).blk t).view.set ↔ ∀ a : Fin 2, win4_2.index t a * S5000x40.size a ≤ (i a).val
      ∧ (i a).val < win4_2.index t a * S5000x40.size a + S5000x40.size a := by
  show i ∈ ((View.whole main_v18).slice (win4_2.rect t)).set ↔ _
  rw [View.set_slice_whole, Rect.mem_set_unit]
  exact Iff.rfl

/-- Every index of the output array is in some point's block: row r in that of point r / 5000. -/
theorem cover4 (i : S50000x40.Idx) :
    ∃ t : Fin cfg4.N, (cfg4.win 2).flush t = true ∧ i ∈ ((cfg4.win 2).blk t).view.set := by
  have hN : cfg4.N = 10 := N_4
  have hi0 : (i 0).val < 50000 := (i 0).isLt
  have hi1 : (i 1).val < 40 := (i 1).isLt
  have ht : (i 0).val / 5000 < cfg4.N := by rw [hN]; omega
  obtain ⟨-, -, -, -, e4, e5⟩ := index_facts4 ⟨(i 0).val / 5000, ht⟩
  refine ⟨⟨(i 0).val / 5000, ht⟩, flush4_2 _, ?_⟩
  rw [mem_block4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 40 ≤ (i 1).val
      ∧ (i 1).val < win4_2.index ⟨(i 0).val / 5000, ht⟩ (1 : Fin 2) * 40 + 40
    rw [e5]; omega

/-- The output array after the region is the product of its operand array and the weight as the region found them. -/
theorem arr4 (c : Dev nD) :
    (dat4 (F := Ideal) V c).arrAt 2 cfg4.N = Cert.LibGcnSteps.prod (V c main_v17) (V c main_arg6) :=
  (dat4 V c).arrAt_eq_of_cover 2 (prod (M := 50000) (K := 128) (N := 40) (V c main_v17) (V c main_arg6))
    (fun t _ => flushed4_eq V c t) cover4

end Cert.KernelIdeal.KBlocks

end
-- ==== Proof.KBlock5.lean ====
/-
  The closing bias region read as one whole-array function.

  The region runs over ten points. Point t stages rows 5000·t … 5000·t + 4999 of its row-indexed operand (all 40
  columns) and the whole 1×40 bias row, and writes back the same rows of the output. On a block the body adds the bias
  row to every row, entry by entry. Entry (p, n) of that function depends on entry (p, n) of the operand only, so what
  point t writes back is rows 5000·t … of the same function of the WHOLE operand. The ten blocks tile the 50000 rows
  (row r lies in the block of point r / 5000), hence the output array ends holding that function of the arrays the
  region was entered with, whatever they held.
-/
import proofs.«152837_j64845416235488_1_alg».proof.Proof.Gen.KernelIdeal.Frame
import proofs.«152837_j64845416235488_1_alg».proof.Proof.LibGcnSteps
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.LibGcnSteps

variable (V : (c : Dev nD) → (b : Ref sig .tc) → Buf (Elt Ideal) ((c : Thread nD τ).loc b))

/-- The zero offsets of a store or load of a whole block, spelt as a constant function. -/
theorem zeroOffsets5 : (![0, 0] : Fin 2 → Nat) = fun _ => 0 := funext fun a => by fin_cases a <;> rfl

/-- The body's arithmetic on a block of rows: the bias row added to every row. -/
theorem pay5_eq (x0 : Vec Ideal S5000x40 .f32) (x1 : Vec Ideal S1x40 .f32) :
    k5_pay1 x0 x1 = addRow x0 x1 := by
  unfold k5_pay1
  simp only [shapeCast_self]
  exact addRow_tile x0 x1 _

/-- The block indices at each of the ten points: the operand and output windows are at block row t, column block 0;
    the bias window stays at block (0, 0). -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row q of the operand block at point t is row 5000·t + q of the operand array. -/
theorem rows_block5 (c : Dev nD) (t : Fin cfg5.N) (q : Fin 5000) (n : Fin 40) (p : Fin 50000)
    (hp : p.val = 5000 * t.val + q.val) :
    (iblk5 V c 0 t : Vec Ideal S5000x40 .f32) (ix2 q n) = (V c main_v22 : S50000x40.Idx → Elt Ideal .f32) (ix2 p n) := by
  obtain ⟨e0, e1, -⟩ := index_facts5 t
  unfold iblk5
  rw [View.read_apply]
  show V c main_v22 _ = V c main_v22 _
  congr 1
  funext a
  apply Fin.ext
  match a with
  | ⟨0, _⟩ => show win5_0.index t (0 : Fin 2) * 5000 + 1 * q.val = p.val; rw [e0, hp]; omega
  | ⟨1, _⟩ => show win5_0.index t (1 : Fin 2) * 40 + 1 * n.val = n.val; rw [e1]; omega

/-- The bias block at every point is the whole bias row. -/
theorem bias_block5 (c : Dev nD) (t : Fin cfg5.N) :
    (iblk5 V c 1 t : Vec Ideal S1x40 .f32) = (V c main_v23 : S1x40.Idx → Elt Ideal .f32) := by
  obtain ⟨-, -, e2, e3, -⟩ := index_facts5 t
  funext y
  unfold iblk5
  rw [View.read_apply]
  show V c main_v23 _ = V c main_v23 _
  congr 1
  funext a
  apply Fin.ext
  match a with
  | ⟨0, _⟩ => show win5_1.index t (0 : Fin 2) * 1 + 1 * (y 0).val = (y 0).val; rw [e2]; omega
  | ⟨1, _⟩ => show win5_1.index t (1 : Fin 2) * 40 + 1 * (y 1).val = (y 1).val; rw [e3]; omega

/-- What point t writes back is block t of the same function of the whole arrays. -/
theorem flushed5_eq (c : Dev nD) (t : Fin cfg5.N) :
    (dat5 (F := Ideal) V c).flushed 2 t
      = ((cfg5.win 2).blk t).view.read (Elt Ideal) (addRow (M := 50000) (N := 40) (V c main_v22) (V c main_v23)) := by
  show (cfg5.win 2).cut (grid5.coords t) ((dat5 V c).after 2 t) = _
  rw [after5_2]
  unfold out5_2
  rw [View.canon_unit_zero zeroOffsets5]
  simp only [View.ld_unit_zero (S := S5000x40) zeroOffsets5, View.ld_unit_zero (S := S1x40) zeroOffsets5]
  rw [pay5_eq, bias_block5]
  funext y
  obtain ⟨q, n, rfl⟩ : ∃ (q : Fin 5000) (n : Fin 40), y = ix2 q n := ⟨y 0, y 1, eq_ix2 y⟩
  obtain ⟨-, -, -, -, e4, e5⟩ := index_facts5 t
  have hN : cfg5.N = 10 := N_5
  have ht : t.val < 10 := hN ▸ t.isLt
  have hemb : ((cfg5.win 2).blk t).view.emb (ix2 q n)
      = (ix2 (⟨5000 * t.val + q.val, by omega⟩ : Fin 50000) n : S50000x40.Idx) := by
    funext a
    apply Fin.ext
    match a with
    | ⟨0, _⟩ => show win5_2.index t (0 : Fin 2) * 5000 + 1 * q.val = 5000 * t.val + q.val; rw [e4]; omega
    | ⟨1, _⟩ => show win5_2.index t (1 : Fin 2) * 40 + 1 * n.val = n.val; rw [e5]; omega
  show addRow (iblk5 V c 0 t) (V c main_v23) (ix2 q n)
      = addRow (M := 50000) (N := 40) (V c main_v22) (V c main_v23) (((cfg5.win 2).blk t).view.emb (ix2 q n))
  rw [hemb]
  exact addRow_rows _ _ _ _ q n (rows_block5 V c t q n _ rfl)

/-- An index of the output array is in point t's block iff each coordinate is in the block's range on its axis. -/
theorem mem_block5 (t : Fin cfg5.N) (i : S50000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v24).slice (win5_2.rect t)).set ↔ _
  rw [View.set_slice_whole, Rect.mem_set_unit]
  exact Iff.rfl

/-- Every index of the output array is in some point's block: row r in that of point r / 5000. -/
theorem cover5 (i : S50000x40.Idx) :
    ∃ t : Fin cfg5.N, (cfg5.win 2).flush t = true ∧ i ∈ ((cfg5.win 2).blk t).view.set := by
  have hN : cfg5.N = 10 := N_5
  have hi0 : (i 0).val < 50000 := (i 0).isLt
  have hi1 : (i 1).val < 40 := (i 1).isLt
  have ht : (i 0).val / 5000 < cfg5.N := by rw [hN]; omega
  obtain ⟨-, -, -, -, e4, e5⟩ := index_facts5 ⟨(i 0).val / 5000, ht⟩
  refine ⟨⟨(i 0).val / 5000, ht⟩, flush5_2 _, ?_⟩
  rw [mem_block5]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 40 ≤ (i 1).val
      ∧ (i 1).val < win5_2.index ⟨(i 0).val / 5000, ht⟩ (1 : Fin 2) * 40 + 40
    rw [e5]; omega

/-- The output array after the region is that function of its operand array and the bias row as the region found them. -/
theorem arr5 (c : Dev nD) :
    (dat5 (F := Ideal) V c).arrAt 2 cfg5.N = Cert.LibGcnSteps.addRow (V c main_v22) (V c main_v23) :=
  (dat5 V c).arrAt_eq_of_cover 2 (addRow (M := 50000) (N := 40) (V c main_v22) (V c main_v23))
    (fun t _ => flushed5_eq V c t) cover5

end Cert.KernelIdeal.KBlocks

end
-- ==== Proof.KFold.lean ====
/-
  The idealized kernel's result as one function of its arguments.

  The last boundary's contents at the result buffer are read back through the thirteen segments. A region leaves its
  output array at one whole-array function of the arrays it was entered with: a product for the three projection
  kernels, the bias row added (and the positive part taken) for the three epilogue kernels. A host stretch between
  them gathers the projected rows at the edges' sources and adds them into zeros at the edges' targets, and reshapes
  the next bias vector to a row. The edge list's two rows are sliced once, before the first region, and nothing ever
  writes them again; no region and no host operation writes an argument. So the boundary contents telescope: the
  result is the network of three layers around the aggregation along the edge list, of the arguments as launched.
-/
import proofs.«152837_j64845416235488_1_alg».proof.Proof.Gen.KernelIdeal.Frame
import proofs.«152837_j64845416235488_1_alg».proof.Proof.KAgg
import proofs.«152837_j64845416235488_1_alg».proof.Proof.KStretch
import proofs.«152837_j64845416235488_1_alg».proof.Proof.KTake
import proofs.«152837_j64845416235488_1_alg».proof.Proof.LibGcnSteps
import proofs.«152837_j64845416235488_1_alg».proof.Proof.KBlock0
import proofs.«152837_j64845416235488_1_alg».proof.Proof.KBlock1
import proofs.«152837_j64845416235488_1_alg».proof.Proof.KBlock2
import proofs.«152837_j64845416235488_1_alg».proof.Proof.KBlock3
import proofs.«152837_j64845416235488_1_alg».proof.Proof.KBlock4
import proofs.«152837_j64845416235488_1_alg».proof.Proof.KBlock5
import Idealize.ShloMosaic.Lib.StableHlo.Run

set_option maxRecDepth 16384

noncomputable section

namespace Cert.KernelIdeal.KFold

open Cert.KernelIdeal Cert.KernelIdeal.Gen Cert.LibGcnSteps
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A buffer no operation of a line writes keeps its contents. -/
theorem keep {ops : List (HloOp τ sig (Elt Ideal))} (W : Valuation τ sig (Elt Ideal)) (b : Ref sig .tc)
    (h : ∀ op ∈ ops, Proc.devRef .tc b ∉ op.writes) : after ops W (Proc.devRef .tc b) = W (Proc.devRef .tc b) :=
  after_of_forall_not_mem ops W h

/-- No operation of a literal line writes the buffer: each operation writes its one result buffer, another one. -/
macro "no_write" : tactic => `(tactic| (
  refine List.forall_iff_forall_mem.mp ?_
  simp only [hostOps0, hostOps1, hostOps1_1, hostOps3, hostOps3_1, hostOps5, hostOps5_1, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## A buffer nothing writes, read at a later boundary, holds what it held at the first region's entry -/

section Kept

variable (b : Ref sig .tc)
variable (r0 : ∀ w, Pipeline.arrRef spec0 w ≠ b)
variable (h1 : ∀ op ∈ (hostOps1 : List (HloOp τ sig (Elt Ideal))), Proc.devRef .tc b ∉ op.writes)
variable (h1' : ∀ op ∈ (hostOps1_1 : List (HloOp τ sig (Elt Ideal))), Proc.devRef .tc b ∉ op.writes)
variable (r1 : ∀ w, Pipeline.arrRef spec1 w ≠ b) (r2 : ∀ w, Pipeline.arrRef spec2 w ≠ b)
variable (h3 : ∀ op ∈ (hostOps3 : List (HloOp τ sig (Elt Ideal))), Proc.devRef .tc b ∉ op.writes)
variable (h3' : ∀ op ∈ (hostOps3_1 : List (HloOp τ sig (Elt Ideal))), Proc.devRef .tc b ∉ op.writes)
variable (r3 : ∀ w, Pipeline.arrRef spec3 w ≠ b) (r4 : ∀ w, Pipeline.arrRef spec4 w ≠ b)
variable (h5 : ∀ op ∈ (hostOps5 : List (HloOp τ sig (Elt Ideal))), Proc.devRef .tc b ∉ op.writes)

include r0 in
theorem at2 : W2 m ρ c (Proc.devRef .tc b) = W1 m ρ c (Proc.devRef .tc b) := W2_of_ne m ρ c b r0
include r0 h1 in
theorem at3 : W3 m ρ c (Proc.devRef .tc b) = W1 m ρ c (Proc.devRef .tc b) :=
  (keep (W2 m ρ c) b h1).trans (at2 m ρ c b r0)
include r0 h1 h1' r1 in
theorem at5 : W5 m ρ c (Proc.devRef .tc b) = W1 m ρ c (Proc.devRef .tc b) :=
  (W5_of_ne m ρ c b r1).trans ((keep (W3 m ρ c) b h1').trans (at3 m ρ c b r0 h1))
include r0 h1 h1' r1 r2 in
theorem at6 : W6 m ρ c (Proc.devRef .tc b) = W1 m ρ c (Proc.devRef .tc b) :=
  (W6_of_ne m ρ c b r2).trans (at5 m ρ c b r0 h1 h1' r1)
include r0 h1 h1' r1 r2 h3 in
theorem at7 : W7 m ρ c (Proc.devRef .tc b) = W1 m ρ c (Proc.devRef .tc b) :=
  (keep (W6 m ρ c) b h3).trans (at6 m ρ c b r0 h1 h1' r1 r2)
include r0 h1 h1' r1 r2 h3 h3' r3 in
theorem at9 : W9 m ρ c (Proc.devRef .tc b) = W1 m ρ c (Proc.devRef .tc b) :=
  (W9_of_ne m ρ c b r3).trans ((keep (W7 m ρ c) b h3').trans (at7 m ρ c b r0 h1 h1' r1 r2 h3))
include r0 h1 h1' r1 r2 h3 h3' r3 r4 in
theorem at10 : W10 m ρ c (Proc.devRef .tc b) = W1 m ρ c (Proc.devRef .tc b) :=
  (W10_of_ne m ρ c b r4).trans (at9 m ρ c b r0 h1 h1' r1 r2 h3 h3' r3)
include r0 h1 h1' r1 r2 h3 h3' r3 r4 h5 in
theorem at11 : W11 m ρ c (Proc.devRef .tc b) = W1 m ρ c (Proc.devRef .tc b) :=
  (keep (W10 m ρ c) b h5).trans (at10 m ρ c b r0 h1 h1' r1 r2 h3 h3' r3 r4)

end Kept

/-! ## The first region's entry: the edge list's rows sliced, the arguments as launched -/

theorem src1 : W1 m ρ c (Proc.devRef .tc main_v1) = Agg.srcOf (m ((c : Thread nD τ).loc main_arg1)) :=
  KStretch.src0 (W0 m ρ c)
theorem dst1 : W1 m ρ c (Proc.devRef .tc main_v3) = Agg.dstOf (m ((c : Thread nD τ).loc main_arg1)) :=
  KStretch.dst0 (W0 m ρ c)
theorem arg1_ (b : Ref sig .tc) (h0 : ∀ op ∈ (hostOps0 : List (HloOp τ sig (Elt Ideal))), Proc.devRef .tc b ∉ op.writes) :
    W1 m ρ c (Proc.devRef .tc b) = m ((c : Thread nD τ).loc b) :=
  keep (W0 m ρ c) b h0

/-! ## Layer by layer -/

/-- After the first layer's three segments: the first hidden features. -/
theorem hidden1 : W5 m ρ c (Proc.devRef .tc main_v10)
    = addRowMax (Agg.agg128 (m ((c : Thread nD τ).loc main_arg1)) (prod (m ((c : Thread nD τ).loc main_arg0)) (m ((c : Thread nD τ).loc main_arg2))))
        (shapeCast S1x128 (m ((c : Thread nD τ).loc main_arg3)) Facts₀.shapeCasts_S128_S1x128) (Ideal.ofBits .f32 0x00000000#32) := by
  have e4 : W2 m ρ c (Proc.devRef .tc main_v4)
      = prod (W1 m ρ c (Proc.devRef .tc main_arg0)) (W1 m ρ c (Proc.devRef .tc main_arg2)) :=
    (W2_arr m ρ c 2).trans (KBlocks.arr0 (V1 m ρ) c)
  have e5 : W3 m ρ c (Proc.devRef .tc main_v5)
      = Agg.take128 (W2 m ρ c (Proc.devRef .tc main_v4)) (W2 m ρ c (Proc.devRef .tc main_v1)) := KTake.take1 (W2 m ρ c)
  have e8 : W4 m ρ c (Proc.devRef .tc main_v8) = _ := KStretch.scat1 (W3 m ρ c)
  have e9 : W4 m ρ c (Proc.devRef .tc main_v9) = _ := KStretch.row1 (W3 m ρ c)
  have e10 : W5 m ρ c (Proc.devRef .tc main_v10)
      = addRowMax (W4 m ρ c (Proc.devRef .tc main_v8)) (W4 m ρ c (Proc.devRef .tc main_v9)) (Ideal.ofBits .f32 0x00000000#32) :=
    (W5_arr m ρ c 2).trans (KBlocks.arr1 (V4 m ρ) c)
  rw [e10, e8, e9, e5, e4,
    at3 m ρ c main_v3 (by decide) (by no_write), at3 m ρ c main_arg3 (by decide) (by no_write),
    at2 m ρ c main_v1 (by decide), src1, dst1,
    arg1_ m ρ c main_arg0 (by no_write), arg1_ m ρ c main_arg2 (by no_write), arg1_ m ρ c main_arg3 (by no_write)]
  rfl

/-- After the second layer's: the second hidden features, from the first. -/
theorem hidden2 : W9 m ρ c (Proc.devRef .tc main_v17)
    = addRowMax (Agg.agg128 (m ((c : Thread nD τ).loc main_arg1)) (prod (W5 m ρ c (Proc.devRef .tc main_v10)) (m ((c : Thread nD τ).loc main_arg4))))
        (shapeCast S1x128 (m ((c : Thread nD τ).loc main_arg5)) Facts₀.shapeCasts_S128_S1x128) (Ideal.ofBits .f32 0x00000000#32) := by
  have e11 : W6 m ρ c (Proc.devRef .tc main_v11)
      = prod (W5 m ρ c (Proc.devRef .tc main_v10)) (W5 m ρ c (Proc.devRef .tc main_arg4)) :=
    (W6_arr m ρ c 2).trans (KBlocks.arr2 (V5 m ρ) c)
  have e12 : W7 m ρ c (Proc.devRef .tc main_v12)
      = Agg.take128 (W6 m ρ c (Proc.devRef .tc main_v11)) (W6 m ρ c (Proc.devRef .tc main_v1)) := KTake.take3 (W6 m ρ c)
  have e15 : W8 m ρ c (Proc.devRef .tc main_v15) = _ := KStretch.scat3 (W7 m ρ c)
  have e16 : W8 m ρ c (Proc.devRef .tc main_v16) = _ := KStretch.row3 (W7 m ρ c)
  have e17 : W9 m ρ c (Proc.devRef .tc main_v17)
      = addRowMax (W8 m ρ c (Proc.devRef .tc main_v15)) (W8 m ρ c (Proc.devRef .tc main_v16)) (Ideal.ofBits .f32 0x00000000#32) :=
    (W9_arr m ρ c 2).trans (KBlocks.arr3 (V8 m ρ) c)
  rw [e17, e15, e16, e12, e11,
    at7 m ρ c main_v3 (by decide) (by no_write) (by no_write) (by decide) (by decide) (by no_write),
    at7 m ρ c main_arg5 (by decide) (by no_write) (by no_write) (by decide) (by decide) (by no_write),
    at6 m ρ c main_v1 (by decide) (by no_write) (by no_write) (by decide) (by decide),
    at5 m ρ c main_arg4 (by decide) (by no_write) (by no_write) (by decide), src1, dst1,
    arg1_ m ρ c main_arg4 (by no_write), arg1_ m ρ c main_arg5 (by no_write)]
  rfl

/-- After the third layer's: the result, from the second hidden features. -/
theorem output3 : W13 m ρ c (Proc.devRef .tc main_v24)
    = addRow (Agg.agg40 (m ((c : Thread nD τ).loc main_arg1)) (prod (W9 m ρ c (Proc.devRef .tc main_v17)) (m ((c : Thread nD τ).loc main_arg6))))
        (shapeCast S1x40 (m ((c : Thread nD τ).loc main_arg7)) Facts₀.shapeCasts_S40_S1x40) := by
  have e18 : W10 m ρ c (Proc.devRef .tc main_v18)
      = prod (W9 m ρ c (Proc.devRef .tc main_v17)) (W9 m ρ c (Proc.devRef .tc main_arg6)) :=
    (W10_arr m ρ c 2).trans (KBlocks.arr4 (V9 m ρ) c)
  have e19 : W11 m ρ c (Proc.devRef .tc main_v19)
      = Agg.take40 (W10 m ρ c (Proc.devRef .tc main_v18)) (W10 m ρ c (Proc.devRef .tc main_v1)) := KTake.take5 (W10 m ρ c)
  have e22 : W12 m ρ c (Proc.devRef .tc main_v22) = _ := KStretch.scat5 (W11 m ρ c)
  have e23 : W12 m ρ c (Proc.devRef .tc main_v23) = _ := KStretch.row5 (W11 m ρ c)
  have e24 : W13 m ρ c (Proc.devRef .tc main_v24)
      = addRow (W12 m ρ c (Proc.devRef .tc main_v22)) (W12 m ρ c (Proc.devRef .tc main_v23)) :=
    (W13_arr m ρ c 2).trans (KBlocks.arr5 (V12 m ρ) c)
  rw [e24, e22, e23, e19, e18,
    at11 m ρ c main_v3 (by decide) (by no_write) (by no_write) (by decide) (by decide) (by no_write) (by no_write) (by decide) (by decide) (by no_write),
    at11 m ρ c main_arg7 (by decide) (by no_write) (by no_write) (by decide) (by decide) (by no_write) (by no_write) (by decide) (by decide) (by no_write),
    at10 m ρ c main_v1 (by decide) (by no_write) (by no_write) (by decide) (by decide) (by no_write) (by no_write) (by decide) (by decide),
    at9 m ρ c main_arg6 (by decide) (by no_write) (by no_write) (by decide) (by decide) (by no_write) (by no_write) (by decide), src1, dst1,
    arg1_ m ρ c main_arg6 (by no_write), arg1_ m ρ c main_arg7 (by no_write)]
  rfl

/-- The result buffer at the last boundary is the three-layer network, around the aggregation along the edge list, of
    the arguments as launched. -/
theorem result_eq : W13 m ρ c (Proc.devRef .tc main_v24)
    = net (M := 50000) (K := 128) (H := 128) (C := 40) (Agg.agg128 (m ((c : Thread nD τ).loc main_arg1))) (Agg.agg40 (m ((c : Thread nD τ).loc main_arg1))) (Ideal.ofBits .f32 0x00000000#32)
        (m ((c : Thread nD τ).loc main_arg0)) (m ((c : Thread nD τ).loc main_arg2))
        (shapeCast S1x128 (m ((c : Thread nD τ).loc main_arg3)) Facts₀.shapeCasts_S128_S1x128)
        (m ((c : Thread nD τ).loc main_arg4))
        (shapeCast S1x128 (m ((c : Thread nD τ).loc main_arg5)) Facts₀.shapeCasts_S128_S1x128)
        (m ((c : Thread nD τ).loc main_arg6))
        (shapeCast S1x40 (m ((c : Thread nD τ).loc main_arg7)) Facts₀.shapeCasts_S40_S1x40) := by
  rw [output3, hidden2, hidden1]
  rfl

end Cert.KernelIdeal.KFold

end
-- ==== Proof.RefRunOps.lean ====
/-
  The reference program as a straight line.

  The printed program calls four module-local functions: the row-taking function three times (twice at width 128,
  once at width 40), the positive-part function twice, and the row-taking function itself calls the three-way select.
  A call executes the callee's operations on the caller's buffers, so the whole program is one list of 103 operations:
  each call's operations stand at the call site, over that call's own buffers, with the call's operands in place of
  the callee's arguments. `main_eq` says the printed program is that list run in order; `ops_sub` that every
  operation touches TensorCore buffers only.
-/
import proofs.«152837_j64845416235488_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The program's 103 operations, in order: five of its own (the two rows of the edge list, the first product), the 23 of
    the first row-taking call, seven of its own (the zeros, the targets as a column, the scatter-add, the bias broadcast
    twice, the sum), the three of the positive part, the second product; the same again for the second layer; the third
    product, the 23 of the row-taking call at width 40, and the last seven. -/
abbrev ops : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call0.c (constantI S_ 32 0#32),
    TRef.unary main_call0.c main_call0.v0 (broadcastInDim S800000 ![] bcast_S_S800000),
    TRef.binary (.of main_v1) main_call0.v0 main_call0.v1 (cmpi .slt),
    TRef.nullary main_call0.c_0 (constantI S_ 32 50000#32),
    TRef.unary main_call0.c_0 main_call0.v2 (broadcastInDim S800000 ![] bcast_S_S800000),
    TRef.binary (.of main_v1) main_call0.v2 main_call0.v3 addi,
    TRef.ternary main_call0.v1 main_call0.v3 (.of main_v1) main_call0.call0.v0 select,
    TRef.unary main_call0.call0.v0 main_call0.v5 (broadcastInDim S800000x1 ![0] bcast_S800000_S800000x1_0),
    TRef.nullary main_call0.c_1 (constantI S1 32 49999#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_v4) main_call0.v5 main_call0.v13 (fun x i => Host.gather gather_S50000x128_S800000x1_S800000x128_1_0_n_n_0_1_1128 x i),
    TRef.unary main_call0.v12 main_call0.v14 (broadcastInDim S800000x128 ![0] bcast_S800000_S800000x128_0),
    TRef.nullary main_call0.cst (constant S_ .f32 0x7FC00000#32),
    TRef.unary main_call0.cst main_call0.v15 (broadcastInDim S800000x128 ![] bcast_S_S800000x128),
    TRef.ternary main_call0.v14 main_call0.v13 main_call0.v15 main_call0.v16 select,
    nullary main_cst (constant S_ .f32 0x00000000#32),
    unary main_cst main_v6 (broadcastInDim S50000x128 ![] bcast_S_S50000x128 : (⟨S_, .f32⟩ : BufTy).Contents (Elt F) → (⟨S50000x128, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg3 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v8 main_v10 main_v11 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v11) main_call1.v0 main_call1.v1 maximumf,
    binary main_v12 main_arg4 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary main_call2.c (constantI S_ 32 0#32),
    TRef.unary main_call2.c main_call2.v0 (broadcastInDim S800000 ![] bcast_S_S800000),
    TRef.binary (.of main_v1) main_call2.v0 main_call2.v1 (cmpi .slt),
    TRef.nullary main_call2.c_0 (constantI S_ 32 50000#32),
    TRef.unary main_call2.c_0 main_call2.v2 (broadcastInDim S800000 ![] bcast_S_S800000),
    TRef.binary (.of main_v1) main_call2.v2 main_call2.v3 addi,
    TRef.ternary main_call2.v1 main_call2.v3 (.of main_v1) main_call2.call0.v0 select,
    TRef.unary main_call2.call0.v0 main_call2.v5 (broadcastInDim S800000x1 ![0] bcast_S800000_S800000x1_0),
    TRef.nullary main_call2.c_1 (constantI S1 32 49999#32),
    TRef.nullary main_call2.c_2 (constantI S_ 32 0#32),
    TRef.unary main_call2.c_2 main_call2.v6 (broadcastInDim S800000x1 ![] bcast_S_S800000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S800000x1 ![0, 1] bcast_S1x1_S800000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S800000x1_S800000_d1 h_S_),
    TRef.binary (.of main_v13) main_call2.v5 main_call2.v13 (fun x i => Host.gather gather_S50000x128_S800000x1_S800000x128_1_0_n_n_0_1_1128 x i),
    TRef.unary main_call2.v12 main_call2.v14 (broadcastInDim S800000x128 ![0] bcast_S800000_S800000x128_0),
    TRef.nullary main_call2.cst (constant S_ .f32 0x7FC00000#32),
    TRef.unary main_call2.cst main_call2.v15 (broadcastInDim S800000x128 ![] bcast_S_S800000x128),
    TRef.ternary main_call2.v14 main_call2.v13 main_call2.v15 main_call2.v16 select,
    nullary main_cst_0 (constant S_ .f32 0x00000000#32),
    unary main_cst_0 main_v15 (broadcastInDim S50000x128 ![] bcast_S_S50000x128 : (⟨S_, .f32⟩ : BufTy).Contents (Elt F) → (⟨S50000x128, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v20) main_call3.v0 main_call3.v1 maximumf,
    binary main_v21 main_arg6 main_v22 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    TRef.nullary main_call4.c (constantI S_ 32 0#32),
    TRef.unary main_call4.c main_call4.v0 (broadcastInDim S800000 ![] bcast_S_S800000),
    TRef.binary (.of main_v1) main_call4.v0 main_call4.v1 (cmpi .slt),
    TRef.nullary main_call4.c_0 (constantI S_ 32 50000#32),
    TRef.unary main_call4.c_0 main_call4.v2 (broadcastInDim S800000 ![] bcast_S_S800000),
    TRef.binary (.of main_v1) main_call4.v2 main_call4.v3 addi,
    TRef.ternary main_call4.v1 main_call4.v3 (.of main_v1) main_call4.call0.v0 select,
    TRef.unary main_call4.call0.v0 main_call4.v5 (broadcastInDim S800000x1 ![0] bcast_S800000_S800000x1_0),
    TRef.nullary main_call4.c_1 (constantI S1 32 49999#32),
    TRef.nullary main_call4.c_2 (constantI S_ 32 0#32),
    TRef.unary main_call4.c_2 main_call4.v6 (broadcastInDim S800000x1 ![] bcast_S_S800000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S800000x1 ![0, 1] bcast_S1x1_S800000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S800000x1_S800000_d1 h_S_),
    TRef.binary (.of main_v22) main_call4.v5 main_call4.v13 (fun x i => Host.gather gather_S50000x40_S800000x1_S800000x40_1_0_n_n_0_1_140 x i),
    TRef.unary main_call4.v12 main_call4.v14 (broadcastInDim S800000x40 ![0] bcast_S800000_S800000x40_0),
    TRef.nullary main_call4.cst (constant S_ .f32 0x7FC00000#32),
    TRef.unary main_call4.cst main_call4.v15 (broadcastInDim S800000x40 ![] bcast_S_S800000x40),
    TRef.ternary main_call4.v14 main_call4.v13 main_call4.v15 main_call4.v16 select,
    nullary main_cst_1 (constant S_ .f32 0x00000000#32),
    unary main_cst_1 main_v24 (broadcastInDim S50000x40 ![] bcast_S_S50000x40 : (⟨S_, .f32⟩ : BufTy).Contents (Elt F) → (⟨S50000x40, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_arg7 main_v27 (broadcastInDim S1x40 ![1] bcast_S40_S1x40_1 : (⟨S40, .f32⟩ : BufTy).Contents (Elt F) → (⟨S1x40, .f32⟩ : BufTy).Contents (Elt F)),
    unary main_v27 main_v28 (broadcastInDim S50000x40 ![0, 1] bcast_S1x40_S50000x40_0_1 : (⟨S1x40, .f32⟩ : BufTy).Contents (Elt F) → (⟨S50000x40, .f32⟩ : BufTy).Contents (Elt F)),
    binary main_v26 main_v28 main_v29 (addf : (⟨S50000x40, .f32⟩ : BufTy).Contents (Elt F) → (⟨S50000x40, .f32⟩ : BufTy).Contents (Elt F) → (⟨S50000x40, .f32⟩ : BufTy).Contents (Elt F)) ]

-- 103 binds re-associated: the rewrite under the chain recurses once per statement
set_option maxRecDepth 4096 in
set_option maxHeartbeats 4000000 in
/-- The printed program is that straight line: the functions' definitions unfolded at their calls, both sides are one
    chain of steps once the sequencing is re-associated. -/
theorem main_eq (c : Dev nD) : main (F := F) c = seq ops := by
  simp only [main, fn_take.body, fn_take_0.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub ..⟩

end Cert.ReferenceIdeal.RefRun

end
-- ==== Proof.RAgg.lean ====
/-
  The neighbourhood aggregation as one function, in this program's own vocabulary.

  The edge list is a 2×E array of node numbers: row 0 the sources, row 1 the targets. Aggregating an N×D matrix h
  takes, for every edge, row src(e) of h (a negative number counted from the end; a number outside 0..N-1 after that
  gives a row of the format's not-a-number pattern), and adds the taken rows into an N×D matrix of zeros at the rows
  the targets name. The program spells this with a slice and a reshape per row of the edge list, a comparison, an
  addition and a select for the negative numbers, a range test, a gather, a select on the test, and a scatter-add.
  Nothing below looks inside the gather or the scatter-add: the functions are named so that two programs that apply
  the same operations to equal matrices can be compared without opening them.
-/
import proofs.«152837_j64845416235488_1_alg».proof.Proof.Gen.ReferenceIdeal

noncomputable section

namespace Cert.ReferenceIdeal.Agg

open Cert.ReferenceIdeal Cert.ReferenceIdeal.Facts₀ Idealize.ShloMosaic

variable {F : FTy → Type} [FloatOps F]

/-- Row `r` of the edge list as a vector of E node numbers. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The node numbers with the negative ones counted from the end, as an E×1 column of row numbers. -/
def rowOf (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Whether each row number lies in 0..N-1. -/
def inRange (row : (⟨S800000x1, .i32⟩ : BufTy).Contents (Elt F)) : (⟨S800000, .i1⟩ : BufTy).Contents (Elt F) :=
  Host.reduce IntOp.andi
    (andi (cmpi .sge row (broadcastInDim S800000x1 ![] bcast_S_S800000x1 (constantI S_ 32 0#32)))
      (cmpi .sle row (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of an N×128 matrix at the edges' sources. -/
def take128 (h : (⟨S50000x128, .f32⟩ : BufTy).Contents (Elt F)) (src : (⟨S800000, .i32⟩ : BufTy).Contents (Elt F)) :
    (⟨S800000x128, .f32⟩ : BufTy).Contents (Elt F) :=
  select (broadcastInDim S800000x128 ![0] bcast_S800000_S800000x128_0 (inRange (rowOf src)))
    (Host.gather gather_S50000x128_S800000x1_S800000x128_1_0_n_n_0_1_1128 h (rowOf src))
    (broadcastInDim S800000x128 ![] bcast_S_S800000x128 (constant S_ .f32 0x7FC00000#32))

/-- The rows of an N×40 matrix at the edges' sources. -/
def take40 (h : (⟨S50000x40, .f32⟩ : BufTy).Contents (Elt F)) (src : (⟨S800000, .i32⟩ : BufTy).Contents (Elt F)) :
    (⟨S800000x40, .f32⟩ : BufTy).Contents (Elt F) :=
  select (broadcastInDim S800000x40 ![0] bcast_S800000_S800000x40_0 (inRange (rowOf src)))
    (Host.gather gather_S50000x40_S800000x1_S800000x40_1_0_n_n_0_1_140 h (rowOf src))
    (broadcastInDim S800000x40 ![] bcast_S_S800000x40 (constant S_ .f32 0x7FC00000#32))

/-- The taken rows added into zeros at the edges' targets: the aggregation of an N×128 matrix along the edge list. -/
def agg128 (ei : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstOf ei))
    (take128 h (srcOf ei))

/-- The same for an N×40 matrix. -/
def agg40 (ei : (⟨S2x800000, .i32⟩ : BufTy).Contents (Elt F)) (h : (⟨S50000x40, .f32⟩ : BufTy).Contents (Elt F)) :
    (⟨S50000x40, .f32⟩ : BufTy).Contents (Elt F) :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 (dstOf ei))
    (take40 h (srcOf ei))

end Cert.ReferenceIdeal.Agg

end
-- ==== Proof.RefOut.lean ====
/-
  The reference's result as one function of its eight arguments.

  Three graph-convolution layers. A layer multiplies the node features by its weight, aggregates the product along
  the edge list (the rows at the edges' sources added into the rows at the edges' targets), adds the bias vector to
  every row, and, in the first two layers, takes the maximum with zero. The functions below are the reference's own
  operations in its own order; the aggregation is the named function of the edge list, not opened.
-/
import proofs.«152837_j64845416235488_1_alg».proof.Proof.RAgg

noncomputable section

namespace Cert.ReferenceIdeal.RefOut

open Cert.ReferenceIdeal Cert.ReferenceIdeal.Facts₀ Idealize.ShloMosaic

variable {F : FTy → Type} [FloatOps F]

/-- A layer of width 128 with the positive part. -/
def layer128 (ei : (⟨S2x800000, .i32⟩ : BufTy).Contents (Elt F)) (h : (⟨S50000x128, .f32⟩ : BufTy).Contents (Elt F))
    (w : (⟨S128x128, .f32⟩ : BufTy).Contents (Elt F)) (b : (⟨S128, .f32⟩ : BufTy).Contents (Elt F)) :
    (⟨S50000x128, .f32⟩ : BufTy).Contents (Elt F) :=
  maximumf
    (addf (Agg.agg128 ei (Host.dotGeneral dot_S50000x128_S128x128_S50000x128_1_0_0_1_n_n none h w))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The last layer, of width 40, without the positive part. -/
def layer40 (ei : (⟨S2x800000, .i32⟩ : BufTy).Contents (Elt F)) (h : (⟨S50000x128, .f32⟩ : BufTy).Contents (Elt F))
    (w : (⟨S128x40, .f32⟩ : BufTy).Contents (Elt F)) (b : (⟨S40, .f32⟩ : BufTy).Contents (Elt F)) :
    (⟨S50000x40, .f32⟩ : BufTy).Contents (Elt F) :=
  addf (Agg.agg40 ei (Host.dotGeneral dot_S50000x128_S128x40_S50000x40_1_0_0_1_n_n none h w))
    (broadcastInDim S50000x40 ![0, 1] bcast_S1x40_S50000x40_0_1 (broadcastInDim S1x40 ![1] bcast_S40_S1x40_1 b))

/-- The three layers. -/
def refOut (x : (⟨S50000x128, .f32⟩ : BufTy).Contents (Elt F)) (ei : (⟨S2x800000, .i32⟩ : BufTy).Contents (Elt F))
    (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F))
    (w2 : (⟨S128x40, .f32⟩ : BufTy).Contents (Elt F)) (b2 : (⟨S40, .f32⟩ : BufTy).Contents (Elt F)) :
    (⟨S50000x40, .f32⟩ : BufTy).Contents (Elt F) :=
  layer40 ei (layer128 ei (layer128 ei x w0 b0) w1 b1) w2 b2

end Cert.ReferenceIdeal.RefOut

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.RefRun.lean ====
/-
  The reference program's run, read at its result.

  The program is a straight line of 103 operations (the module imported first). Every weakly fair execution of it
  terminates with each buffer at the fold of the operations over the launch contents; this module reads that fold at
  the result buffer as the three-layer function `RefOut.refOut` of the eight arguments' launch contents, and at each
  argument as the argument's launch contents.

  Reading the result: each operation's value at its own buffer is its function of its operands' values, a buffer no
  later operation writes keeps its value, so the fold at the last buffer is the operations composed along the
  program's data flow. The operations of a called function are stated over typed references, which move contents
  between "the buffer's type" and "the value's type"; at the program's literal buffers these two types are the same,
  the moves are the identity, and what is left is, operation for operation, the text of `RefOut.refOut` with the
  aggregation functions unfolded. No array operation is opened anywhere.
-/
import proofs.«152837_j64845416235488_1_alg».proof.Proof.RefRunOps
import proofs.«152837_j64845416235488_1_alg».proof.Proof.RefOut
import proofs.«152837_j64845416235488_1_alg».proof.Proof.LibStageRead
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-! ## The typed references' moves are the identity -/

/-- A typed reference's two moves cancel: contents moved to the buffer's own type and back are unchanged. -/
theorem ofBuf_toBuf {T : BufTy} {Val : EltTy → Type} (x : TRef sig T) (v : T.Contents Val) : x.ofBuf (x.toBuf v) = v := by
  obtain ⟨r, h, _, _⟩ := x; subst h; rfl

/-! Where a called function reads one of the program's own buffers (its operand), or the program reads a buffer a
called function wrote (its result), only one of the two moves occurs; at that literal buffer it is the identity. -/

theorem ofBuf_v1 (h₁ h₂ h₃) (v : (⟨S800000, .i32⟩ : BufTy).Contents (Elt F)) :
    (TRef.of (T := ⟨S800000, .i32⟩) main_v1 h₁ h₂ h₃).ofBuf v = v := rfl
theorem ofBuf_v4 (h₁ h₂ h₃) (v : (⟨S50000x128, .f32⟩ : BufTy).Contents (Elt F)) :
    (TRef.of (T := ⟨S50000x128, .f32⟩) main_v4 h₁ h₂ h₃).ofBuf v = v := rfl
theorem ofBuf_v11 (h₁ h₂ h₃) (v : (⟨S50000x128, .f32⟩ : BufTy).Contents (Elt F)) :
    (TRef.of (T := ⟨S50000x128, .f32⟩) main_v11 h₁ h₂ h₃).ofBuf v = v := rfl
theorem ofBuf_v13 (h₁ h₂ h₃) (v : (⟨S50000x128, .f32⟩ : BufTy).Contents (Elt F)) :
    (TRef.of (T := ⟨S50000x128, .f32⟩) main_v13 h₁ h₂ h₃).ofBuf v = v := rfl
theorem ofBuf_v20 (h₁ h₂ h₃) (v : (⟨S50000x128, .f32⟩ : BufTy).Contents (Elt F)) :
    (TRef.of (T := ⟨S50000x128, .f32⟩) main_v20 h₁ h₂ h₃).ofBuf v = v := rfl
theorem ofBuf_v22 (h₁ h₂ h₃) (v : (⟨S50000x40, .f32⟩ : BufTy).Contents (Elt F)) :
    (TRef.of (T := ⟨S50000x40, .f32⟩) main_v22 h₁ h₂ h₃).ofBuf v = v := rfl
theorem toBuf_v5 (h₁ h₂ h₃) (v : (⟨S800000x128, .f32⟩ : BufTy).Contents (Elt F)) :
    (TRef.of (T := ⟨S800000x128, .f32⟩) main_v5 h₁ h₂ h₃).toBuf v = v := rfl
theorem toBuf_v12 (h₁ h₂ h₃) (v : (⟨S50000x128, .f32⟩ : BufTy).Contents (Elt F)) :
    (TRef.of (T := ⟨S50000x128, .f32⟩) main_v12 h₁ h₂ h₃).toBuf v = v := rfl
theorem toBuf_v14 (h₁ h₂ h₃) (v : (⟨S800000x128, .f32⟩ : BufTy).Contents (Elt F)) :
    (TRef.of (T := ⟨S800000x128, .f32⟩) main_v14 h₁ h₂ h₃).toBuf v = v := rfl
theorem toBuf_v21 (h₁ h₂ h₃) (v : (⟨S50000x128, .f32⟩ : BufTy).Contents (Elt F)) :
    (TRef.of (T := ⟨S50000x128, .f32⟩) main_v21 h₁ h₂ h₃).toBuf v = v := rfl
theorem toBuf_v23 (h₁ h₂ h₃) (v : (⟨S800000x40, .f32⟩ : BufTy).Contents (Elt F)) :
    (TRef.of (T := ⟨S800000x40, .f32⟩) main_v23 h₁ h₂ h₃).toBuf v = v := rfl

/-! ## The result -/

attribute [local irreducible] Host.reduce Host.gather Host.scatterAdd select cmpi addi andi addf maximumf broadcastInDim
  extractStridedSlice shapeCast constantI constant in
set_option maxRecDepth 16384 in
set_option maxHeartbeats 4000000 in
/-- The fold at the result buffer is the three layers of the eight arguments. The fold is read operation by operation
    (each result lemma at its own buffer, every other buffer unchanged, the buffers told apart by computation); the
    there-and-back moves cancel; the one-way moves at the program's literal buffers are the identity; both sides are then
    the same composition of the same operations, every array operation kept folded while they are compared. -/
theorem out_eq (V : Valuation τ sig (Elt F)) :
    after ops V (main_v29 : DevRef τ sig)
      = RefOut.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  simp only [ofBuf_toBuf, ofBuf_v1, ofBuf_v4, ofBuf_v11, ofBuf_v13, ofBuf_v20, ofBuf_v22, toBuf_v5, toBuf_v12, toBuf_v14, toBuf_v21, toBuf_v23]
  unfold RefOut.refOut RefOut.layer40 RefOut.layer128 Agg.agg128 Agg.agg40 Agg.take128 Agg.take40 Agg.inRange Agg.rowOf
    Agg.srcOf Agg.dstOf
  rfl

/-! ## The arguments -/

/-- The buffers the line writes, operation by operation: each of the 103 values' own buffer, none twice, no argument. -/
abbrev dsts : List (Ref sig .tc) :=
  [
    main_v0, main_v1, main_v2, main_v3, main_v4, main_call0_c, main_call0_v0, main_call0_v1,
    main_call0_c_0, main_call0_v2, main_call0_v3, main_call0_v4, main_call0_v5, main_call0_c_1, main_call0_c_2, main_call0_v6,
    main_call0_v7, main_call0_v8, main_call0_v9, main_call0_v10, main_call0_v11, main_call0_c_3, main_call0_v12, main_call0_v13,
    main_call0_v14, main_call0_cst, main_call0_v15, main_v5, main_cst, main_v6, main_v7, main_v8,
    main_v9, main_v10, main_v11, main_call1_cst, main_call1_v0, main_v12, main_v13, main_call2_c,
    main_call2_v0, main_call2_v1, main_call2_c_0, main_call2_v2, main_call2_v3, main_call2_v4, main_call2_v5, main_call2_c_1,
    main_call2_c_2, main_call2_v6, main_call2_v7, main_call2_v8, main_call2_v9, main_call2_v10, main_call2_v11, main_call2_c_3,
    main_call2_v12, main_call2_v13, main_call2_v14, main_call2_cst, main_call2_v15, main_v14, main_cst_0, main_v15,
    main_v16, main_v17, main_v18, main_v19, main_v20, main_call3_cst, main_call3_v0, main_v21,
    main_v22, main_call4_c, main_call4_v0, main_call4_v1, main_call4_c_0, main_call4_v2, main_call4_v3, main_call4_v4,
    main_call4_v5, main_call4_c_1, main_call4_c_2, main_call4_v6, main_call4_v7, main_call4_v8, main_call4_v9, main_call4_v10,
    main_call4_v11, main_call4_c_3, main_call4_v12, main_call4_v13, main_call4_v14, main_call4_cst, main_call4_v15, main_v23,
    main_cst_1, main_v24, main_v25, main_v26, main_v27, main_v28, main_v29 ]

theorem writesAre : WritesAre (τ := τ) (ops (F := F)) dsts := by
  unfold WritesAre
  repeat (refine List.Forall₂.cons (Finset.Subset.refl _) ?_)
  exact List.Forall₂.nil

theorem arg0_eq (V : Valuation τ sig (Elt F)) :
    after ops V (main_arg0 : DevRef τ sig) = V (main_arg0 : DevRef τ sig) :=
  after_of_writes_sub ops V writesAre.forall_sub (by decide)

theorem arg1_eq (V : Valuation τ sig (Elt F)) :
    after ops V (main_arg1 : DevRef τ sig) = V (main_arg1 : DevRef τ sig) :=
  after_of_writes_sub ops V writesAre.forall_sub (by decide)

theorem arg2_eq (V : Valuation τ sig (Elt F)) :
    after ops V (main_arg2 : DevRef τ sig) = V (main_arg2 : DevRef τ sig) :=
  after_of_writes_sub ops V writesAre.forall_sub (by decide)

theorem arg3_eq (V : Valuation τ sig (Elt F)) :
    after ops V (main_arg3 : DevRef τ sig) = V (main_arg3 : DevRef τ sig) :=
  after_of_writes_sub ops V writesAre.forall_sub (by decide)

theorem arg4_eq (V : Valuation τ sig (Elt F)) :
    after ops V (main_arg4 : DevRef τ sig) = V (main_arg4 : DevRef τ sig) :=
  after_of_writes_sub ops V writesAre.forall_sub (by decide)

theorem arg5_eq (V : Valuation τ sig (Elt F)) :
    after ops V (main_arg5 : DevRef τ sig) = V (main_arg5 : DevRef τ sig) :=
  after_of_writes_sub ops V writesAre.forall_sub (by decide)

theorem arg6_eq (V : Valuation τ sig (Elt F)) :
    after ops V (main_arg6 : DevRef τ sig) = V (main_arg6 : DevRef τ sig) :=
  after_of_writes_sub ops V writesAre.forall_sub (by decide)

theorem arg7_eq (V : Valuation τ sig (Elt F)) :
    after ops V (main_arg7 : DevRef τ sig) = V (main_arg7 : DevRef τ sig) :=
  after_of_writes_sub ops V writesAre.forall_sub (by decide)

/-! ## The run -/

/-- On every device, for any float values, from any memory with zero counters: every weakly fair execution of the
    reference program terminates with its result buffer at `RefOut.refOut` of the eight arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = RefOut.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v29).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.RefNet.lean ====
/-
  The reference's function as the three-layer network.

  A layer of the reference is the host's matrix product of the node features with the weight, the aggregation of the
  product along the edge list, the bias vector broadcast to a row and down the rows and added, and in the first two
  layers the maximum with a broadcast zero. Over the extended reals the host's product with the plain dimension
  numbers is the product entry by entry, and the broadcasts read the bias at the column and the zero everywhere, so a
  layer is the three steps (product, aggregate, add the bias row, positive part) and the reference is their
  composition three times over. The aggregations stay the named functions of the edge list throughout: nothing here
  looks inside them, and no entry of these arrays is evaluated.
-/
import proofs.«152837_j64845416235488_1_alg».proof.Proof.RefOut
import proofs.«152837_j64845416235488_1_alg».proof.Proof.LibGcnSteps

noncomputable section

namespace Cert.ReferenceIdeal.RefNet

open Cert.ReferenceIdeal Idealize.ShloMosaic Cert.LibGcnSteps

/-- A layer of width 128 is the product, aggregated, the bias row added to every row, and the maximum with zero. -/
theorem layer128_eq (ei : (⟨S2x800000, .i32⟩ : BufTy).Contents (Elt Ideal)) (h : (⟨S50000x128, .f32⟩ : BufTy).Contents (Elt Ideal))
    (w : (⟨S128x128, .f32⟩ : BufTy).Contents (Elt Ideal)) (b : (⟨S128, .f32⟩ : BufTy).Contents (Elt Ideal))
    (hsc : S128.ShapeCasts S1x128) :
    RefOut.layer128 (F := Ideal) ei h w b
      = addRowMax (M := 50000) (N := 128) (Agg.agg128 (F := Ideal) ei (prod (M := 50000) (K := 128) (N := 128) h w))
          (shapeCast S1x128 b hsc) (Ideal.ofBits .f32 0x00000000#32) := by
  unfold RefOut.layer128
  rw [prod_host (M := 50000) (K := 128) (N := 128) dot_S50000x128_S128x128_S50000x128_1_0_0_1_n_n rfl h w]
  exact addRowMax_host (M := 50000) (N := 128) _ b _ _ hsc _ _

/-- The last layer, of width 40, is the product, aggregated, and the bias row added to every row. -/
theorem layer40_eq (ei : (⟨S2x800000, .i32⟩ : BufTy).Contents (Elt Ideal)) (h : (⟨S50000x128, .f32⟩ : BufTy).Contents (Elt Ideal))
    (w : (⟨S128x40, .f32⟩ : BufTy).Contents (Elt Ideal)) (b : (⟨S40, .f32⟩ : BufTy).Contents (Elt Ideal))
    (hsc : S40.ShapeCasts S1x40) :
    RefOut.layer40 (F := Ideal) ei h w b
      = addRow (M := 50000) (N := 40) (Agg.agg40 (F := Ideal) ei (prod (M := 50000) (K := 128) (N := 40) h w))
          (shapeCast S1x40 b hsc) := by
  unfold RefOut.layer40
  rw [prod_host (M := 50000) (K := 128) (N := 40) dot_S50000x128_S128x40_S50000x40_1_0_0_1_n_n rfl h w]
  exact addRow_host (M := 50000) (N := 40) _ b _ _ hsc

/-- The reference's function is the three-layer network around the two aggregations. -/
theorem refOut_eq_net (x : (⟨S50000x128, .f32⟩ : BufTy).Contents (Elt Ideal)) (ei : (⟨S2x800000, .i32⟩ : BufTy).Contents (Elt Ideal))
    (w0 : (⟨S128x128, .f32⟩ : BufTy).Contents (Elt Ideal)) (b0 : (⟨S128, .f32⟩ : BufTy).Contents (Elt Ideal))
    (w1 : (⟨S128x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal))
    (hsc128 : S128.ShapeCasts S1x128) (hsc40 : S40.ShapeCasts S1x40) :
    RefOut.refOut (F := Ideal) x ei w0 b0 w1 b1 w2 b2
      = Cert.LibGcnSteps.net (M := 50000) (K := 128) (H := 128) (C := 40) (Agg.agg128 (F := Ideal) ei) (Agg.agg40 (F := Ideal) ei)
          (Ideal.ofBits .f32 0x00000000#32) x w0 (shapeCast S1x128 b0 hsc128) w1 (shapeCast S1x128 b1 hsc128) w2 (shapeCast S1x40 b2 hsc40) := by
  unfold RefOut.refOut Cert.LibGcnSteps.net
  rw [layer40_eq ei _ w2 b2 hsc40, layer128_eq ei _ w1 b1 hsc128, layer128_eq ei x w0 b0 hsc128]

end Cert.ReferenceIdeal.RefNet

end
-- ==== Proof.Bridge.lean ====
/-
  The five claims.

  Both idealized programs compute three graph-convolution layers: project the node features by the layer's weight,
  aggregate the projected rows along the edge list (the rows at the edges' sources added into the rows at the edges'
  targets), add the bias to every row, and in the first two layers take the maximum with zero. The kernel does the
  projection and the bias step in tiled kernels over blocks of 5000 rows, with operands rounded to a narrower format
  that the extended reals do not see, and the aggregation with the host's gather and scatter-add; the reference does
  every step on whole arrays. Read as whole-array functions the steps agree one by one, in the same order: no sum is
  rearranged, so no entry needs to be finite, and the aggregation is the same operations applied to equal matrices,
  never opened. The kernel's result is read off its run's last boundary, the reference's off its run; both are the
  three-layer network around the aggregation along the edge list.
-/
import proofs.«152837_j64845416235488_1_alg».proof.Defs
import proofs.«152837_j64845416235488_1_alg».proof.Proof.Gen.Kernel
import proofs.«152837_j64845416235488_1_alg».proof.Proof.Gen.Kernel.Frame
import proofs.«152837_j64845416235488_1_alg».proof.Proof.Gen.KernelIdeal
import proofs.«152837_j64845416235488_1_alg».proof.Proof.Gen.KernelIdeal.Frame
import proofs.«152837_j64845416235488_1_alg».proof.Proof.Gen.ReferenceIdeal
import proofs.«152837_j64845416235488_1_alg».proof.Proof.Gen.Pre_finite_inputs
import proofs.«152837_j64845416235488_1_alg».proof.Proof.KRun
import proofs.«152837_j64845416235488_1_alg».proof.Proof.KFold
import proofs.«152837_j64845416235488_1_alg».proof.Proof.RefRun
import proofs.«152837_j64845416235488_1_alg».proof.Proof.RefNet

set_option maxRecDepth 16384

noncomputable section

namespace Cert.Proof.Bridge

open Idealize.ShloMosaic Idealize.ShloMosaic.TcCoe Idealize.SL.Sem

/-- The two programs' aggregations are one function: the same operations, with the same dimension numbers. -/
theorem agg128_eq (ei : (⟨Cert.ReferenceIdeal.S2x800000, .i32⟩ : BufTy).Contents (Elt Ideal)) :
    Cert.ReferenceIdeal.Agg.agg128 (F := Ideal) ei = Cert.KernelIdeal.Agg.agg128 (F := Ideal) ei :=
  funext fun _ => rfl

theorem agg40_eq (ei : (⟨Cert.ReferenceIdeal.S2x800000, .i32⟩ : BufTy).Contents (Elt Ideal)) :
    Cert.ReferenceIdeal.Agg.agg40 (F := Ideal) ei = Cert.KernelIdeal.Agg.agg40 (F := Ideal) ei :=
  funext fun _ => rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealization is the kernel's own text read over the extended reals. -/
theorem preserves : Cert.preserves_Kernel_KernelIdeal := trivial

/-- The kernel ends with its result buffer at the last boundary's contents, the reference with its result at its own
    function of the arguments; from memories agreeing on the arguments both are the same network. -/
theorem algebraic : Cert.algebraic_KernelIdeal_ReferenceIdeal := by
  intro m ρ m' ρ' _ hagree
  refine ⟨fun c => Cert.KernelIdeal.Gen.W13 m ρ c (Proc.devRef .tc Cert.KernelIdeal.main_v24),
    Cert.KernelIdeal.KRun.run_result m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  refine (Cert.ReferenceIdeal.RefNet.refOut_eq_net _ _ _ _ _ _ _ _
    Cert.KernelIdeal.Facts₀.shapeCasts_S128_S1x128 Cert.KernelIdeal.Facts₀.shapeCasts_S40_S1x40).trans ?_
  rw [agg128_eq, agg40_eq]
  exact (Cert.KernelIdeal.KFold.result_eq m ρ c).symm

end Cert.Proof.Bridge

end
-- ==== Proof.lean ====
/- The proof of `Cert.Claim`: the three frames, the sanctioned idealization, and the equality of the two idealized
   programs' results over the extended reals.

   The programs are a three-layer graph convolution over 50000 nodes and 800000 edges. The kernel's frames are the
   generated ones (six tiled kernel regions among host stretches); the reference's frame is its run, read by hand because
   it calls module-local functions, with the result dropped. The ideal pass rewrote nothing, so `preserves` is trivial.
   For `algebraic` both results are the same network of whole-array steps — product with the weight, aggregation
   along the edge list, bias row added, positive part — and the aggregation, the same host operations on both sides, is
   carried as one function and never opened (Proof/Bridge.lean). -/
import proofs.«152837_j64845416235488_1_alg».proof.Defs
import proofs.«152837_j64845416235488_1_alg».proof.Proof.Bridge
import proofs.«152837_j64845416235488_1_alg».proof.Proof.Gen.Kernel
import proofs.«152837_j64845416235488_1_alg».proof.Proof.Gen.KernelIdeal
import proofs.«152837_j64845416235488_1_alg».proof.Proof.Gen.ReferenceIdeal
import proofs.«152837_j64845416235488_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
